-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000x5 : Shape := ⟨2, ![100000, 5]⟩
abbrev S256x128 : Shape := ⟨2, ![256, 128]⟩
abbrev S128 : Shape := ⟨1, ![128]⟩
abbrev S128x128 : Shape := ⟨2, ![128, 128]⟩
abbrev S5x128 : Shape := ⟨2, ![5, 128]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x5 : S_.BroadcastsInDim S100000x5 (![] : Fin 0 → Fin S100000x5.rank)
  reducesTo_S100000x5_S_d0_1 : S100000x5.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S5x128 : S_.BroadcastsInDim S5x128 (![] : Fin 0 → Fin S5x128.rank)
  reducesTo_S5x128_S_d0_1 : S5x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S256x1 1) (main_c_39 : IVec S_ 1) : IVec S_ 1 :=
  let main_v102 : IVec S_ 1 := (fun x v => Host.reduce IntOp.andi x v reducesTo_S256x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S128x128 .f32) (main_arg20 : FVec F S128 .f32) (main_arg21 : FVec F S256x1 .f32) (main_arg22 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S256x1 .f32 := Host.absf main_arg21
  let main_cst_38 : FVec F S_ .f32 := constant S_ .f32 0x7F800000#32
  let main_v100 : FVec F S256x1 .f32 := broadcastInDim S256x1 ![] bcast_S_S256x1 main_cst_38
  let main_v101 : IVec S256x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S256x1 .f32) (main_arg22 : FVec F S1 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S128 .f32) (main_arg13 : FVec F S5x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S256x1 .f32) (main_arg22 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S5x128 .f32 := Host.absf main_arg13
  let main_cst_22 : FVec F S_ .f32 := constant S_ .f32 0x7F800000#32
  let main_v60 : FVec F S5x128 .f32 := broadcastInDim S5x128 ![] bcast_S_S5x128 main_cst_22
  let main_v61 : IVec S5x128 1 := cmpf .olt main_v59 main_v60
  let main_c_23 : IVec S_ 1 := constantI S_ 1 1#1
  let main_v62 : IVec S_ 1 := (fun x v => Host.reduce IntOp.andi x v reducesTo_S5x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S128x128 .f32) (main_arg9 : FVec F S128x128 .f32) (main_arg10 : FVec F S128 .f32) (main_arg11 : FVec F S128x128 .f32) (main_arg12 : FVec F S128 .f32) (main_arg13 : FVec F S5x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S256x1 .f32) (main_arg22 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S5x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S256x1 .f32) (main_arg22 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x256 .f32) (main_arg1 : IVec S2x1600000 32) (main_arg2 : FVec F S100000x5 .f32) (main_arg3 : FVec F S256x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S5x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S256x1 .f32) (main_arg22 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x5 .f32 := Host.absf main_arg2
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x256 : Shape := ⟨2, ![100000, 256]⟩
abbrev S2x1600000 : Shape := ⟨2, ![2, 1600000]⟩
abbrev S100000x5 : Shape := ⟨2, ![100000, 5]⟩
abbrev S256x128 : Shape := ⟨2, ![256, 128]⟩
abbrev S128 : Shape := ⟨1, ![128]⟩
abbrev S128x128 : Shape := ⟨2, ![128, 128]⟩
abbrev S5x128 : Shape := ⟨2, ![5, 128]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x256 : Shape := ⟨2, ![4000, 256]⟩
abbrev S4000x128 : Shape := ⟨2, ![4000, 128]⟩
abbrev S1x128 : Shape := ⟨2, ![1, 128]⟩
abbrev S1600000x128 : Shape := ⟨2, ![1600000, 128]⟩
abbrev S4000x1 : Shape := ⟨2, ![4000, 1]⟩
abbrev S128x1 : Shape := ⟨2, ![128, 1]⟩
abbrev S4000x5 : Shape := ⟨2, ![4000, 5]⟩
abbrev S1x1 : Shape := ⟨2, ![1, 1]⟩

abbrev nBuf : Space → Nat
  | .hbm => 74
  | .vmem => 43
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000x5, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S5x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S256x1, .f32⟩
  | .hbm, ⟨22, _⟩ => ⟨S1, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .bf16⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .bf16⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .bf16⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S128x1, .f32⟩
  | .hbm, ⟨71, _⟩ => ⟨S128x1, .f32⟩
  | .hbm, ⟨72, _⟩ => ⟨S100000x1, .f32⟩
  | .hbm, ⟨73, _⟩ => ⟨S100000, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S128, .f32⟩
  | .local _ .vmem, ⟨4, _⟩ => ⟨S4000x128, .bf16⟩
  | .local _ .vmem, ⟨5, _⟩ => ⟨S4000x128, .bf16⟩
  | .local _ .vmem, ⟨6, _⟩ => ⟨S4000x128, .bf16⟩
  | .local _ .vmem, ⟨7, _⟩ => ⟨S4000x128, .bf16⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S4000x128, .bf16⟩
  | .local _ .vmem, ⟨16, _⟩ => ⟨S4000x128, .bf16⟩
  | .local _ .vmem, ⟨17, _⟩ => ⟨S4000x128, .bf16⟩
  | .local _ .vmem, ⟨18, _⟩ => ⟨S4000x128, .bf16⟩
  | .local _ .vmem, ⟨19, _⟩ => ⟨S4000x128, .f32⟩
  | .local _ .vmem, ⟨20, _⟩ => ⟨S4000x128, .f32⟩
  | .local _ .vmem, ⟨21, _⟩ => ⟨S4000x1, .f32⟩
  | .local _ .vmem, ⟨22, _⟩ => ⟨S4000x1, .f32⟩
  | .local _ .vmem, ⟨23, _⟩ => ⟨S4000x5, .f32⟩
  | .local _ .vmem, ⟨24, _⟩ => ⟨S4000x5, .f32⟩
  | .local _ .vmem, ⟨25, _⟩ => ⟨S128x128, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S5x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S128x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S128x1, .f32⟩
  | .local _ .vmem, ⟨39, _⟩ => ⟨S128x1, .f32⟩
  | .local _ .vmem, ⟨40, _⟩ => ⟨S1, .f32⟩
  | .local _ .vmem, ⟨41, _⟩ => ⟨S4000x1, .f32⟩
  | .local _ .vmem, ⟨42, _⟩ => ⟨S4000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_7 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg13_0 : Ref sig .tc := ⟨.vmem, 34, rfl⟩
abbrev cc2_stg14_0 : Ref sig .tc := ⟨.vmem, 35, rfl⟩
abbrev cc2_stg15_0 : Ref sig .tc := ⟨.vmem, 36, rfl⟩
abbrev cc2_stg16_0 : Ref sig .tc := ⟨.vmem, 37, rfl⟩
abbrev cc2_stg17_0 : Ref sig .tc := ⟨.vmem, 38, rfl⟩
abbrev cc2_stg18_0 : Ref sig .tc := ⟨.vmem, 39, rfl⟩
abbrev cc2_stg19_0 : Ref sig .tc := ⟨.vmem, 40, rfl⟩
abbrev cc2_stg20_0 : Ref sig .tc := ⟨.vmem, 41, rfl⟩
abbrev cc2_stg20_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem13_0 : DmaSem sig := 34
abbrev cc2_sem14_0 : DmaSem sig := 35
abbrev cc2_sem15_0 : DmaSem sig := 36
abbrev cc2_sem16_0 : DmaSem sig := 37
abbrev cc2_sem17_0 : DmaSem sig := 38
abbrev cc2_sem18_0 : DmaSem sig := 39
abbrev cc2_sem19_0 : DmaSem sig := 40
abbrev cc2_sem20_0 : DmaSem sig := 41
abbrev cc2_sem20_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x5 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S5x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128x1 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S128x1 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S1 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 2 → Memref sig .tc .vmem S4000x1 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  slices_S256x1_S128x1_0_0 : S256x1.Slices ![0, 0] S128x1
  slices_S256x1_S128x1_128_0 : S256x1.Slices ![128, 0] S128x1
  inb_S4000x5_S4000x5_0_0 : ∀ a, (![0, 0] : Fin 2 → Nat) a + S4000x5.size a ≤ S4000x5.size a
  h_S4000x5 : 0 < S4000x5.numel
  inb_S5x128_S5x128_0_0 : ∀ a, (![0, 0] : Fin 2 → Nat) a + S5x128.size a ≤ S5x128.size a
  h_S5x128 : 0 < S5x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  shapeCasts_S100000x1_S100000 : S100000x1.ShapeCasts S100000
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x5_S5x128_S4000x128_1_0_0_1_n_n_wf : DotDims.WF S4000x5 S5x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x5.size a ≤ S100000x5.size a
  hwx2_3 : ∀ i : grid2.Coords, EltTy.bits .f32 = 32 ∨ (Rect.block (s := S100000x5) S4000x5.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S5x128.size a ≤ S5x128.size a
  hwx2_9 : ∀ i : grid2.Coords, EltTy.bits .f32 = 32 ∨ (Rect.block (s := S5x128) S5x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128.size a ≤ S128.size a
  hwx2_14 : ∀ i : grid2.Coords, EltTy.bits .f32 = 32 ∨ (Rect.block (s := S128) S128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .f32 = 32 ∨ (Rect.block (s := S128x128) S128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S128.size a ≤ S128.size a
  hwx2_16 : ∀ i : grid2.Coords, EltTy.bits .f32 = 32 ∨ (Rect.block (s := S128) S128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128x1.size a ≤ S128x1.size a
  hwx2_17 : ∀ i : grid2.Coords, EltTy.bits .f32 = 32 ∨ (Rect.block (s := S128x1) S128x1.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S128x1.size a ≤ S128x1.size a
  hwx2_18 : ∀ i : grid2.Coords, EltTy.bits .f32 = 32 ∨ (Rect.block (s := S128x1) S128x1.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S1.size a ≤ S1.size a
  hwx2_19 : ∀ i : grid2.Coords, EltTy.bits .f32 = 32 ∨ (Rect.block (s := S1) S1.size (cc2_transform_19 i) (hinb2_19 i)).WholeWords (EltTy.packing .f32)
  hstage2_20 : ∀ j, (stage2_20 j).IsWhole
  nbuf2_20 : grid2.bufCount reads2_20 false = 2
  hreads2_20 : ∀ i i' : grid2.Coords, (∀ a, reads2_20 a = true → i a = i' a) → cc2_transform_20 i = cc2_transform_20 i'
  hinb2_20 : ∀ (i : grid2.Coords) a, (cc2_transform_20 i a + 1) * S4000x1.size a ≤ S100000x1.size a
  hwx2_20 : ∀ i : grid2.Coords, EltTy.bits .f32 = 32 ∨ (Rect.block (s := S100000x1) S4000x1.size (cc2_transform_20 i) (hinb2_20 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x5_S5x128_S4000x128_1_0_0_1_n_n : DotDims S4000x5 S5x128 S4000x128 where
  lhsContracting := [1]
  rhsContracting := [0]
  lhsNonContracting := [0]
  rhsNonContracting := [1]
  lhsBatch := []
  rhsBatch := []
  wf := dot_S4000x5_S5x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S4000x5.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg12) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg13) S5x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg14) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg15) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg16) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg17) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg18) S128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg19) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_arg20) S128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v37) S128x1.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v38) S128x1.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_arg22) S1.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_v39) S4000x1.size cc2_transform_20 reads2_20 true false 2 stage2_20 sem2_20
    hrank2 hreads2_20 hinb2_20 nbuf2_20 (Memref.isWhole_whole _) hwx2_20 hstage2_20

abbrev win2 : Fin 21 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | ⟨_ + 21, h⟩ => absurd h (Nat.not_lt.2 (Nat.le_add_left _ _))
abbrev spec2 : Fin 21 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000x5 : Shape := ⟨2, ![100000, 5]⟩
abbrev S256x128 : Shape := ⟨2, ![256, 128]⟩
abbrev S128 : Shape := ⟨1, ![128]⟩
abbrev S128x128 : Shape := ⟨2, ![128, 128]⟩
abbrev S5x128 : Shape := ⟨2, ![5, 128]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S100000x256, .f32⟩
  | 1 => ⟨S2x1600000, .i32⟩
  | 2 => ⟨S100000x5, .f32⟩
  | 3 => ⟨S256x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S5x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S256x1, .f32⟩
  | 22 => ⟨S1, .f32⟩
  | 23 => ⟨S1x1600000, .i32⟩
  | 24 => ⟨S1600000, .i32⟩
  | 25 => ⟨S1x1600000, .i32⟩
  | 26 => ⟨S1600000, .i32⟩
  | 27 => ⟨S100000x128, .f32⟩
  | 28 => ⟨S1x128, .f32⟩
  | 29 => ⟨S100000x128, .f32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S_, .f32⟩
  | 45 => ⟨S1600000, .f32⟩
  | 46 => ⟨S_, .f32⟩
  | 47 => ⟨S100000, .f32⟩
  | 48 => ⟨S1600000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S100000x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S_, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x128, .f32⟩
  | 89 => ⟨S100000x128, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x256, .f32⟩

abbrev hbmTy0_1 (i : Nat) : BufTy := match i % 128 with
  | 0 => ⟨S100000x256, .f32⟩
  | 1 => ⟨S100000x1, .f32⟩
  | 2 => ⟨S1x1, .f32⟩
  | 3 => ⟨S100000x1, .f32⟩
  | 4 => ⟨S100000x1, .f32⟩
  | 5 => ⟨S100000, .f32⟩
  | 6 => ⟨S100000, .f32⟩
  | 7 => ⟨S100000, .f32⟩
  | 8 => ⟨S_, .f32⟩
  | 9 => ⟨S100000, .f32⟩
  | 10 => ⟨S100000, .f32⟩
  | 11 => ⟨S_, .f32⟩
  | 12 => ⟨S100000, .f32⟩
  | 13 => ⟨S100000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c : Ref sig .tc := ⟨.hbm, 31, rfl⟩
abbrev main_v8 : Ref sig .tc := ⟨.hbm, 32, rfl⟩
abbrev main_v9 : Ref sig .tc := ⟨.hbm, 33, rfl⟩
abbrev main_c_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call0_cst : Ref sig .tc := ⟨.hbm, 62, rfl⟩
abbrev main_call0_v0 : Ref sig .tc := ⟨.hbm, 63, rfl⟩
abbrev main_v33 : Ref sig .tc := ⟨.hbm, 64, rfl⟩
abbrev main_c_4 : Ref sig .tc := ⟨.hbm, 65, rfl⟩
abbrev main_v34 : Ref sig .tc := ⟨.hbm, 66, rfl⟩
abbrev main_v35 : Ref sig .tc := ⟨.hbm, 67, rfl⟩
abbrev main_c_5 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_6 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_7 : Ref sig .tc := ⟨.hbm, 78, rfl⟩
abbrev main_v44 : Ref sig .tc := ⟨.hbm, 79, rfl⟩
abbrev main_cst_8 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_9 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call1_cst : Ref sig .tc := ⟨.hbm, 96, rfl⟩
abbrev main_call1_v0 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_call2_cst : Ref sig .tc := ⟨.hbm, 107, rfl⟩
abbrev main_call2_v0 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call3_cst : Ref sig .tc := ⟨.hbm, 114, rfl⟩
abbrev main_call3_v0 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call4_cst : Ref sig .tc := ⟨.hbm, 121, rfl⟩
abbrev main_call4_v0 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_10 : Ref sig .tc := ⟨.hbm, 136, rfl⟩
abbrev main_v91 : Ref sig .tc := ⟨.hbm, 137, rfl⟩
abbrev main_v92 : Ref sig .tc := ⟨.hbm, 138, rfl⟩
abbrev main_cst_11 : Ref sig .tc := ⟨.hbm, 139, rfl⟩
abbrev main_v93 : Ref sig .tc := ⟨.hbm, 140, rfl⟩
abbrev main_v94 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x5_S5x128_S100000x128_1_0_0_1_n_n_wf : DotDims.WF S100000x5 S5x128 S100000x128 [1] [0] [0] [1] [] []
  dot_S100000x256_S256x1_S100000x1_1_0_0_1_n_n_wf : DotDims.WF S100000x256 S256x1 S100000x1 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.RunAll.lean ====
/-
  The idealized kernel's run with every buffer named.

  The program is seven segments: four stretches of host operations around three kernel regions.  The buffer
  contents at each boundary are a fold from the launch memory: a stretch applies its operations, a region
  replaces its arrays by what its write-backs leave.  Every weakly fair execution terminates, without a fault,
  in a state whose every unscoped buffer holds the last fold's contents.  In particular the result buffer holds
  the last stretch's reshape of what the third region leaves, which the later modules compute.
-/
import proofs.«170601_j32031866093971_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the contents the fold through the seven segments leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The run read at the result buffer and the argument buffers: the result holds the last fold's contents, the
    arguments are as launched. -/
theorem run_result : θ_run defs (onTc (τ := τ) (main (F := F))) ⟨m, fun _ => 0, ρ⟩ (fun r => ∀ c : Dev nD,
      r.2.mem ((c.tc : Thread nD τ).loc main_v40) = W7 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨h c _ (mem_uc main_v40 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c),
     (h c _ (mem_uc main_arg20 (by decide))).trans (W7_main_arg20 m ρ c),
     (h c _ (mem_uc main_arg21 (by decide))).trans (W7_main_arg21 m ρ c),
     (h c _ (mem_uc main_arg22 (by decide))).trans (W7_main_arg22 m ρ c)⟩)
    (run_all m ρ)

end Cert.KernelIdeal.Hand

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibRowVector.lean ====
/-
  A vector laid along every row of a matrix, and a scalar repeated over an array, read at an entry, at any
  sizes.

  The array [M, N] whose entry (p, q) is v q has two spellings: the vector cast to the one-row matrix [1, N]
  and that row repeated M times, and the vector broadcast along its own axis to [1, N] and then along both
  axes to [M, N]. Either way the entry (p, q) is v q. A rank-0 array broadcast to any shape reads its one
  value everywhere.
-/
import Idealize.ShloMosaic.Lib.Pipeline.Value
import Idealize.ShloMosaic.Lib.ValueIdx
import Idealize.ShloMosaic.Lib.ValueLayout

noncomputable section

namespace Cert.LibRowVector

open Idealize.ShloMosaic Idealize.ShloMosaic.ValueIdx

variable {α : Type} {M N : ℕ}

/-- The vector cast to one row and the row repeated: entry (p, q) is v q. -/
theorem castRow_apply (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix1 q) := by
  rw [broadcastTo_1b_ab_apply, shapeCast_a_1a_apply]

/-- The vector broadcast along its own axis to one row: entry (0, q) is v q. -/
theorem inDimOneRow_apply (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

/-- One row broadcast along both axes to M rows: entry (p, q) is the row's entry q. -/
theorem inDimRows_apply (w : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 w (ix2 p q) = w (ix2 (0 : Fin 1) q) :=
  broadcastInDim_apply ![0, 1] h2 w (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)

/-- The vector broadcast to one row and the row to M rows: entry (p, q) is v q. -/
theorem inDimRow_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [inDimRows_apply, inDimOneRow_apply]

/-- A rank-0 array broadcast to any shape reads its one value at every index. -/
theorem inDimScalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun a => a.elim0)

end Cert.LibRowVector

end
-- ==== Proof.LibColumnBroadcast.lean ====
/-
  One column broadcast over many: a reusable fact about array layouts, independent of any program.
-/
import Idealize.ShloMosaic.Lib.Pipeline.Value
import Idealize.ShloMosaic.Lib.ValueIdx

namespace LibColumnBroadcast

open Idealize.ShloMosaic Idealize.ShloMosaic.ValueIdx

/-- An `[a, 1]` array (one value per row, kept as a column) broadcast to `[a, b]` reads, at `(p, c)`, the column's value
    in row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibColumnBroadcast
-- ==== Proof.LibRecip.lean ====
/-
  Multiplying by a reciprocal against dividing, over the extended reals.

  A program that carries `1 / d` and multiplies agrees with one that divides by `d` as soon as `d` is not zero: off
  zero a quotient `a / d` is `a · d⁻¹`, and `1 / d` is `1 · d⁻¹ = d⁻¹`, at the infinities too (`(±∞)⁻¹ = 0`).  A
  divisor that is a maximum with one (a clamped count) is at least one, hence not zero.  No finiteness is needed.
-/
import Idealize.ShloMosaic.PureOps.Ideal

noncomputable section

namespace Cert.LibRecip

open Idealize.ShloMosaic

/-- The single-precision pattern of one denotes the number one. -/
theorem one_f32 : Ideal.ofBits .f32 0x3F800000#32 = 1 := by
  simp [Ideal.ofBits, Ideal.ieee, -EReal.coe_mul]; norm_num

/-- Multiplying by the reciprocal of a nonzero extended real is dividing by it. -/
theorem mul_recip_of_ne_zero (a d : EReal) (hne : d ≠ 0) : a * Ideal.div 1 d = Ideal.div a d := by
  rw [Ideal.div, if_neg hne, Ideal.div, if_neg hne, one_mul]

/-- Multiplying by the reciprocal of a number that is at least one is dividing by it, on every extended real. -/
theorem mul_recip (a d : EReal) (hd : 1 ≤ d) : a * Ideal.div 1 d = Ideal.div a d :=
  mul_recip_of_ne_zero a d fun h => by rw [h] at hd; exact absurd hd (by norm_num)

end Cert.LibRecip

end
-- ==== Proof.LibRowBlock.lean ====
/-
  A block of consecutive rows of an array, and the row-local operations of a dense network read through it.

  For an array with M rows, `rows o h f` is its rows o, …, o + B - 1 as an array with B rows.  Every operation
  of a dense layer acts on each row by itself, so it commutes with taking a block of rows: entrywise arithmetic
  trivially; a matrix product against a fixed right factor because entry (r, c) of x·W is ∑ k, x (r, k) · W (k, c)
  and reads row r of x only — the host's general product of the whole array and the matrix unit's product (into a
  zero accumulator) of the block are then the same sums; a bias laid along every row and a scalar spread over the
  array because they do not depend on the row at all.  A quotient by a per-row count that is at least one equals
  the product with the count's reciprocal kept as a column, at every extended real.  A product against a factor
  that is two arrays joined side by side splits into the two products with the two halves of the right factor.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«170601_j32031866093971_2_alg».proof.Proof.LibProduct
import proofs.«170601_j32031866093971_2_alg».proof.Proof.LibRowVector
import proofs.«170601_j32031866093971_2_alg».proof.Proof.LibColumnBroadcast
import proofs.«170601_j32031866093971_2_alg».proof.Proof.LibRecip

noncomputable section

namespace Cert.LibRowBlock

open Idealize.ShloMosaic Idealize.ShloMosaic.ValueIdx

variable {M B K N : ℕ}

/-- Rows o, …, o + B - 1 of an array with M rows. -/
def rows {α : Type} (o : ℕ) (h : o + B ≤ M) (f : (⟨2, ![M, N]⟩ : Shape).Idx → α) : (⟨2, ![B, N]⟩ : Shape).Idx → α :=
  fun y => f (ix2 (⟨o + (y 0).val, by have h0 : (y 0).val < B := (y 0).isLt; omega⟩ : Fin M) (y 1))

theorem rows_apply {α : Type} (o : ℕ) (h : o + B ≤ M) (f : (⟨2, ![M, N]⟩ : Shape).Idx → α) (p : Fin B) (q : Fin N) :
    rows o h f (ix2 p q) = f (ix2 (⟨o + p.val, by have := p.isLt; omega⟩ : Fin M) q) := rfl

/-- Two rank-2 arrays with equal entries are equal. -/
theorem arr_ext {α : Type} {a b : ℕ} {f g : (⟨2, ![a, b]⟩ : Shape).Idx → α}
    (h : ∀ (r : Fin a) (q : Fin b), f (ix2 r q) = g (ix2 r q)) : f = g := by
  funext i
  obtain ⟨r, q, rfl⟩ : ∃ (r : Fin a) (q : Fin b), i = ix2 r q := ⟨i 0, i 1, eq_ix2 i⟩
  exact h r q

/-! ## Entrywise arithmetic -/

theorem rows_addf {φ : FTy} (o : ℕ) (h : o + B ≤ M) (a b : FVec Ideal ⟨2, ![M, N]⟩ φ) :
    rows o h (addf a b) = addf (rows o h a) (rows o h b) := rfl

theorem rows_maximumf {φ : FTy} (o : ℕ) (h : o + B ≤ M) (a b : FVec Ideal ⟨2, ![M, N]⟩ φ) :
    rows o h (maximumf a b) = maximumf (rows o h a) (rows o h b) := rfl

/-! ## A matrix product against a fixed right factor -/

/-- The block of rows of the host's product x·W is the matrix unit's product of the block of x with W. -/
theorem rows_dotGeneral {φ₁ φ₂ : FTy} (o : ℕ) (h : o + B ≤ M)
    (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (d' : DotDims ⟨2, ![B, K]⟩ ⟨2, ![K, N]⟩ ⟨2, ![B, N]⟩)
    (k1 : d'.lhsContracting = [1]) (k2 : d'.rhsContracting = [0]) (k3 : d'.lhsNonContracting = [0])
    (k4 : d'.rhsNonContracting = [1]) (k5 : d'.lhsBatch = []) (k6 : d'.rhsBatch = [])
    (X : FVec Ideal ⟨2, ![M, K]⟩ φ₁) (W : FVec Ideal ⟨2, ![K, N]⟩ φ₂) :
    rows o h (Host.dotGeneral d none X W)
      = FloatOps.matmul d' none (rows o h X) W (constant ⟨2, ![B, N]⟩ .f32 0x00000000#32) := by
  refine arr_ext fun p q => ?_
  rw [rows_apply, LibProduct.dotGeneral_apply d h1 h2 h3 h4 h5 h6, LibProduct.matmul_zero_apply d' k1 k2 k3 k4 k5 k6]
  rfl

/-! ## A bias along every row, a scalar over the array -/

/-- The bias vector laid along every row of the whole array (the host's two broadcasts), read through a block of rows,
    is the vector cast to one row and repeated over the block (the vector unit's spelling). -/
theorem rows_bias {α : Type} (o : ℕ) (h : o + B ≤ M) (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (c1 : (⟨1, ![N]⟩ : Shape).ShapeCasts ⟨2, ![1, N]⟩) (c2 : (⟨2, ![1, N]⟩ : Shape).Broadcasts ⟨2, ![B, N]⟩) :
    rows o h (broadcastInDim ⟨2, ![M, N]⟩ ![0, 1] h2 (broadcastInDim ⟨2, ![1, N]⟩ ![1] h1 v))
      = broadcastTo ⟨2, ![B, N]⟩ (shapeCast ⟨2, ![1, N]⟩ v c1) c2 := by
  refine arr_ext fun p q => ?_
  rw [rows_apply, LibRowVector.inDimRow_apply, LibRowVector.castRow_apply]

/-- A scalar word spread over the whole array (the host's broadcast of a rank-0 constant), read through a block of
    rows, is the word spread over the block. -/
theorem rows_splat (o : ℕ) (h : o + B ≤ M) (z : BitVec FTy.f32.bits)
    (h0 : (⟨0, ![]⟩ : Shape).BroadcastsInDim ⟨2, ![M, N]⟩ ![]) :
    rows o h (broadcastInDim ⟨2, ![M, N]⟩ ![] h0 (constant (F := Ideal) ⟨0, ![]⟩ .f32 z))
      = broadcast ⟨2, ![B, N]⟩ (Scalar.ofBits (F := Ideal) .f32 z) := by
  refine arr_ext fun p q => ?_
  rw [rows_apply, LibRowVector.inDimScalar_apply, constant_apply]
  rfl

/-! ## A quotient by a per-row count against a product with its reciprocal -/

/-- A vector kept as a column, at (r, 0). -/
theorem column_apply {α : Type} (d : (⟨1, ![M]⟩ : Shape).Idx → α)
    (hc : (⟨1, ![M]⟩ : Shape).BroadcastsInDim ⟨2, ![M, 1]⟩ ![0]) (r : Fin M) (u : Fin 1) :
    broadcastInDim ⟨2, ![M, 1]⟩ ![0] hc d (ix2 r u) = d (ix1 r) :=
  broadcastInDim_apply ![0] hc d (ix2 r u) (ix1 r) (fun a => by
    match a with
    | ⟨0, _⟩ =>
      show r.val = if M = 1 then 0 else r.val
      split
      · have := r.isLt; omega
      · rfl)

/-- A column repeated along every row (the host's spelling), at (r, q). -/
theorem columnRows_apply {α : Type} (w : (⟨2, ![M, 1]⟩ : Shape).Idx → α)
    (hb : (⟨2, ![M, 1]⟩ : Shape).BroadcastsInDim ⟨2, ![M, N]⟩ ![0, 1]) (r : Fin M) (q : Fin N) :
    broadcastInDim ⟨2, ![M, N]⟩ ![0, 1] hb w (ix2 r q) = w (ix2 r (0 : Fin 1)) :=
  broadcastInDim_apply ![0, 1] hb w (ix2 r q) (ix2 r (0 : Fin 1)) (fun a => by
    match a with
    | ⟨0, _⟩ =>
      show r.val = if M = 1 then 0 else r.val
      split
      · have := r.isLt; omega
      · rfl
    | ⟨1, _⟩ => show 0 = if (1 : ℕ) = 1 then 0 else q.val; rw [if_pos rfl])

/-- THE NORMALIZATION.  Dividing every row of A by that row's count d r (the count kept as a column and repeated
    along the row) is, through a block of rows, multiplying the block of A by the block of the column of
    reciprocals one / d r — as soon as every count is at least one.  `one` is any word denoting the number one. -/
theorem rows_divide_count (o : ℕ) (h : o + B ≤ M) (A : FVec Ideal ⟨2, ![M, N]⟩ .f32)
    (d : FVec Ideal ⟨1, ![M]⟩ .f32) (hd : ∀ r : Fin M, 1 ≤ d (ix1 r))
    (ones : FVec Ideal ⟨1, ![M]⟩ .f32) (hones : ∀ r : Fin M, ones (ix1 r) = 1)
    (hc : (⟨1, ![M]⟩ : Shape).BroadcastsInDim ⟨2, ![M, 1]⟩ ![0])
    (hb : (⟨2, ![M, 1]⟩ : Shape).BroadcastsInDim ⟨2, ![M, N]⟩ ![0, 1])
    (hb' : (⟨2, ![B, 1]⟩ : Shape).Broadcasts ⟨2, ![B, N]⟩) :
    rows o h (Host.divf A (broadcastInDim ⟨2, ![M, N]⟩ ![0, 1] hb (broadcastInDim ⟨2, ![M, 1]⟩ ![0] hc d)))
      = mulf (rows o h A)
          (broadcastTo ⟨2, ![B, N]⟩ (rows o h (broadcastInDim ⟨2, ![M, 1]⟩ ![0] hc (Host.divf ones d))) hb') := by
  refine arr_ext fun p q => ?_
  rw [rows_apply, mulf_apply, LibColumnBroadcast.broadcastTo_a1_ab_apply, rows_apply, rows_apply, column_apply]
  show Ideal.div (A _) (broadcastInDim ⟨2, ![M, N]⟩ ![0, 1] hb (broadcastInDim ⟨2, ![M, 1]⟩ ![0] hc d) _) = A _ * Ideal.div (ones _) (d _)
  rw [columnRows_apply, column_apply, hones, LibRecip.mul_recip _ _ (hd _)]

end Cert.LibRowBlock

end
-- ==== Proof.Region0.lean ====
/-
  The first kernel region: the input projection h = x·W + b, one block of 4000 rows per grid point.

  At grid point t the region reads rows 4000 t, …, 4000 t + 3999 of x, all of W and all of b, and writes back
  the same rows of the result.  A row of x·W + b depends on that row of x only, so what point t writes back is
  the block of rows of the whole-array projection, and the 25 blocks tile the 100000 rows: after the region the
  result array is the reference's projection of the arrays the region found.
-/
import proofs.«170601_j32031866093971_2_alg».proof.Proof.RunAll
import proofs.«170601_j32031866093971_2_alg».proof.Proof.Gen.ReferenceIdeal.Read
import proofs.«170601_j32031866093971_2_alg».proof.Proof.LibRowBlock

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.LibRowBlock (rows)

theorem hz2 : (![0, 0] : Fin 2 → Nat) = fun _ => 0 := funext fun a => by fin_cases a <;> rfl
theorem hz1 : (![0] : Fin 1 → Nat) = fun _ => 0 := funext fun a => by fin_cases a <;> rfl

section Region0

variable (V : (c : Dev nD) → (b : Ref sig .tc) → Buf (Elt Ideal) ((c : Thread nD τ).loc b))

/-- The printed index maps over the grid: the row-tiled windows sit at block row t, the weights at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem lt25_0 (t : Fin cfg0.N) : t.val < 25 := lt_of_lt_of_eq t.isLt N_0

theorem blk_le0 (t : Fin cfg0.N) : 4000 * t.val + 4000 ≤ 100000 := by have := lt25_0 t; omega

/-- The block of x at point t is rows 4000 t … of x. -/
theorem iblk0_0 (c : Dev nD) (t : Fin cfg0.N) :
    (iblk0 V c 0 t : S4000x256.Idx → EReal) = rows (4000 * t.val) (blk_le0 t) (V c main_arg0 : S100000x256.Idx → EReal) := by
  obtain ⟨e0, e1, -⟩ := idx_facts0 t
  funext y
  unfold iblk0
  rw [View.read_apply]
  show V c main_arg0 (((cfg0.win 0).blk t).view.emb y) = V c main_arg0 _
  refine congrArg (V c main_arg0) ?_
  funext a; apply Fin.ext
  match a with
  | ⟨0, _⟩ => show win0_0.index t (0 : Fin 2) * 4000 + 1 * (y 0).val = 4000 * t.val + (y 0).val; rw [e0]; omega
  | ⟨1, _⟩ => show win0_0.index t (1 : Fin 2) * 256 + 1 * (y 1).val = (y 1).val; rw [e1]; omega

/-- The block of W at every point is W. -/
theorem iblk0_1 (c : Dev nD) (t : Fin cfg0.N) : (iblk0 V c 1 t : S256x128.Idx → EReal) = V c main_arg3 := by
  obtain ⟨-, -, e2, e3, -⟩ := idx_facts0 t
  funext y
  unfold iblk0
  rw [View.read_apply]
  show V c main_arg3 (((cfg0.win 1).blk t).view.emb y) = V c main_arg3 y
  refine congrArg (V c main_arg3) ?_
  funext a; apply Fin.ext
  match a with
  | ⟨0, _⟩ => show win0_1.index t (0 : Fin 2) * 256 + 1 * (y 0).val = (y 0).val; rw [e2]; omega
  | ⟨1, _⟩ => show win0_1.index t (1 : Fin 2) * 128 + 1 * (y 1).val = (y 1).val; rw [e3]; omega

/-- The block of b at every point is b. -/
theorem iblk0_2 (c : Dev nD) (t : Fin cfg0.N) : (iblk0 V c 2 t : S128.Idx → EReal) = V c main_arg4 := by
  obtain ⟨-, -, -, -, e4, -⟩ := idx_facts0 t
  funext y
  unfold iblk0
  rw [View.read_apply]
  show V c main_arg4 (((cfg0.win 2).blk t).view.emb y) = V c main_arg4 y
  refine congrArg (V c main_arg4) ?_
  funext a; apply Fin.ext
  match a with
  | ⟨0, _⟩ => show win0_2.index t (0 : Fin 1) * 128 + 1 * (y 0).val = (y 0).val; rw [e4]; omega

/-- The output window's block at point t, read off any whole array, is rows 4000 t … of it. -/
theorem oblk0_3 (c : Dev nD) (t : Fin cfg0.N) (G : S100000x128.Idx → EReal) :
    (((cfg0.win 3).blk t).view.read (Elt Ideal) G : S4000x128.Idx → EReal) = rows (4000 * t.val) (blk_le0 t) G := by
  obtain ⟨-, -, -, -, -, e5, e6⟩ := idx_facts0 t
  funext y
  rw [View.read_apply]
  show G (((cfg0.win 3).blk t).view.emb y) = G _
  refine congrArg G ?_
  funext a; apply Fin.ext
  match a with
  | ⟨0, _⟩ => show win0_3.index t (0 : Fin 2) * 4000 + 1 * (y 0).val = 4000 * t.val + (y 0).val; rw [e5]; omega
  | ⟨1, _⟩ => show win0_3.index t (1 : Fin 2) * 128 + 1 * (y 1).val = (y 1).val; rw [e6]; omega

/-- The body's arithmetic on one block: the product into a zero accumulator plus the bias along every row (the
    changes of float format are the identity on extended reals). -/
theorem pay0 (x : Vec Ideal S4000x256 .f32) (W : Vec Ideal S256x128 .f32) (b : Vec Ideal S128 .f32) :
    (k0_pay1 x W b : S4000x128.Idx → EReal) = (addf (FloatOps.matmul (φ₁ := .bf16) (φ₂ := .bf16) dot_S4000x256_S256x128_S4000x128_1_0_0_1_n_n none x W (constant S4000x128 .f32 0x00000000#32))
      (broadcastTo S4000x128 (shapeCast S1x128 b shapeCasts_S128_S1x128) broadcasts_S1x128_S4000x128) : FVec Ideal S4000x128 .f32) := rfl

/-- WHAT POINT t WRITES BACK is its block of rows of the reference's projection of the arrays the region found. -/
theorem flushed0 (c : Dev nD) (t : Fin cfg0.N)
    (x0 : Cert.ReferenceIdeal.S100000x256.Idx → EReal) (x3 : Cert.ReferenceIdeal.S256x128.Idx → EReal) (x4 : Cert.ReferenceIdeal.S128.Idx → EReal)
    (h0 : (V c main_arg0 : S100000x256.Idx → EReal) = x0) (h3 : (V c main_arg3 : S256x128.Idx → EReal) = x3)
    (h4 : (V c main_arg4 : S128.Idx → EReal) = x4) :
    (dat0 V c).flushed 3 t = ((cfg0.win 3).blk t).view.read (Elt Ideal) (Cert.ReferenceIdeal.Read.val_main_v7 (F := Ideal) x0 x3 x4) := by
  show (cfg0.win 3).cut (grid0.coords t) ((dat0 V c).after 3 t) = _
  rw [after0_3]
  unfold out0_3
  rw [View.canon_unit_zero hz2]
  simp only [View.ld_unit_zero (S := S4000x256) hz2, View.ld_unit_zero (S := S256x128) hz2, View.ld_unit_zero (S := S128) hz1]
  rw [iblk0_0, iblk0_1, iblk0_2, h0, h3, h4]
  show (k0_pay1 (F := Ideal) (rows (4000 * t.val) (blk_le0 t) x0) x3 x4 : S4000x128.Idx → EReal) = _
  rw [pay0]
  refine Eq.trans ?_ (oblk0_3 c t _).symm
  unfold Cert.ReferenceIdeal.Read.val_main_v7 Cert.ReferenceIdeal.Read.val_main_v4 Cert.ReferenceIdeal.Read.val_main_v6 Cert.ReferenceIdeal.Read.val_main_v5
  rw [Cert.LibRowBlock.rows_addf,
    Cert.LibRowBlock.rows_dotGeneral (4000 * t.val) (blk_le0 t) Cert.ReferenceIdeal.dot_S100000x256_S256x128_S100000x128_1_0_0_1_n_n rfl rfl rfl rfl rfl rfl
      dot_S4000x256_S256x128_S4000x128_1_0_0_1_n_n rfl rfl rfl rfl rfl rfl,
    Cert.LibRowBlock.rows_bias (4000 * t.val) (blk_le0 t) x4 Cert.ReferenceIdeal.Gen.bcast_S128_S1x128_1 Cert.ReferenceIdeal.Gen.bcast_S1x128_S100000x128_0_1
      shapeCasts_S128_S1x128 broadcasts_S1x128_S4000x128]
  rfl

/-- An index of the result array is in point t's block iff its row is among rows 4000 t …. -/
theorem mem_blk0_3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v13).slice (win0_3.rect t)).set ↔ _
  rw [View.set_slice_whole, Rect.mem_set_unit]
  exact Iff.rfl

/-- The 25 blocks of 4000 rows tile the 100000 rows. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 4000 < cfg0.N := by rw [show cfg0.N = 25 from N_0]; omega
  obtain ⟨-, -, -, -, -, e5, e6⟩ := idx_facts0 ⟨(i 0).val / 4000, hN⟩
  refine ⟨⟨(i 0).val / 4000, hN⟩, flush0_3 _, ?_⟩
  rw [mem_blk0_3]
  intro a
  match a with
  | ⟨0, _⟩ =>
    show win0_3.index ⟨(i 0).val / 4000, hN⟩ (0 : Fin 2) * 4000 ≤ (i 0).val ∧ (i 0).val < win0_3.index ⟨(i 0).val / 4000, hN⟩ (0 : Fin 2) * 4000 + 4000
    rw [e5]; show (i 0).val / 4000 * 4000 ≤ (i 0).val ∧ (i 0).val < (i 0).val / 4000 * 4000 + 4000; omega
  | ⟨1, _⟩ =>
    show win0_3.index ⟨(i 0).val / 4000, hN⟩ (1 : Fin 2) * 128 ≤ (i 1).val ∧ (i 1).val < win0_3.index ⟨(i 0).val / 4000, hN⟩ (1 : Fin 2) * 128 + 128
    rw [e6]; omega

/-- THE RESULT ARRAY after the region: the reference's projection of the arrays the region found. -/
theorem final0 (c : Dev nD)
    (x0 : Cert.ReferenceIdeal.S100000x256.Idx → EReal) (x3 : Cert.ReferenceIdeal.S256x128.Idx → EReal) (x4 : Cert.ReferenceIdeal.S128.Idx → EReal)
    (h0 : (V c main_arg0 : S100000x256.Idx → EReal) = x0) (h3 : (V c main_arg3 : S256x128.Idx → EReal) = x3)
    (h4 : (V c main_arg4 : S128.Idx → EReal) = x4) :
    (dat0 V c).arrAt 3 cfg0.N = Cert.ReferenceIdeal.Read.val_main_v7 (F := Ideal) x0 x3 x4 :=
  (dat0 V c).arrAt_eq_of_cover 3 _ (fun t _ => flushed0 V c t x0 x3 x4 h0 h3 h4) cover0

end Region0

end Cert.KernelIdeal.Hand

end
-- ==== Proof.Region1.lean ====
/-
  The second kernel region: the first graph convolution,
  h1 = max ((h·Ws + (agg ⊙ inv)·Wn) + b, 0), one block of 4000 rows per grid point.

  The region finds the projected features h, the neighbour sums agg, and the column inv of reciprocals
  1 / max (deg, 1).  The reference divides the neighbour sums by max (deg, 1) instead; a count that is a maximum
  with one is at least one, and there multiplying by the reciprocal is dividing.  Every operation acts on each
  row by itself, so what point t writes back is the block of rows of the reference's layer, and the 25 blocks
  tile the rows.
-/
import proofs.«170601_j32031866093971_2_alg».proof.Proof.Region0

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.LibRowBlock (rows)

section Region1

variable (V : (c : Dev nD) → (b : Ref sig .tc) → Buf (Elt Ideal) ((c : Thread nD τ).loc b))

theorem lt25_1 (t : Fin cfg1.N) : t.val < 25 := lt_of_lt_of_eq t.isLt N_1

theorem blk_le1 (t : Fin cfg1.N) : 4000 * t.val + 4000 ≤ 100000 := by have := lt25_1 t; omega

theorem idx1_0 : ∀ t : Fin cfg1.N, win1_0.index t (0 : Fin 2) = t.val ∧ win1_0.index t (1 : Fin 2) = 0 :=
  (by decide +kernel : ∀ t : Fin grid1.N, _)

/-- Window 0's block at point t is rows 4000 t … of its array. -/
theorem iblk1_0 (c : Dev nD) (t : Fin cfg1.N) :
    (iblk1 V c 0 t : S4000x128.Idx → EReal) = rows (4000 * t.val) (blk_le1 t) (V c main_v13 : S100000x128.Idx → EReal) := by
  obtain ⟨e0, e1⟩ := idx1_0 t
  funext y
  unfold iblk1
  rw [View.read_apply]
  show V c main_v13 (((cfg1.win 0).blk t).view.emb y) = V c main_v13 _
  refine congrArg (V c main_v13) ?_
  funext a; apply Fin.ext
  match a with
  | ⟨0, _⟩ => show win1_0.index t (0 : Fin 2) * 4000 + 1 * (y 0).val = 4000 * t.val + (y 0).val; rw [e0]; omega
  | ⟨1, _⟩ => show win1_0.index t (1 : Fin 2) * 128 + 1 * (y 1).val = (y 1).val; rw [e1]; omega

theorem idx1_1 : ∀ t : Fin cfg1.N, win1_1.index t (0 : Fin 2) = t.val ∧ win1_1.index t (1 : Fin 2) = 0 :=
  (by decide +kernel : ∀ t : Fin grid1.N, _)

/-- Window 1's block at point t is rows 4000 t … of its array. -/
theorem iblk1_1 (c : Dev nD) (t : Fin cfg1.N) :
    (iblk1 V c 1 t : S4000x128.Idx → EReal) = rows (4000 * t.val) (blk_le1 t) (V c main_v24 : S100000x128.Idx → EReal) := by
  obtain ⟨e0, e1⟩ := idx1_1 t
  funext y
  unfold iblk1
  rw [View.read_apply]
  show V c main_v24 (((cfg1.win 1).blk t).view.emb y) = V c main_v24 _
  refine congrArg (V c main_v24) ?_
  funext a; apply Fin.ext
  match a with
  | ⟨0, _⟩ => show win1_1.index t (0 : Fin 2) * 4000 + 1 * (y 0).val = 4000 * t.val + (y 0).val; rw [e0]; omega
  | ⟨1, _⟩ => show win1_1.index t (1 : Fin 2) * 128 + 1 * (y 1).val = (y 1).val; rw [e1]; omega

theorem idx1_2 : ∀ t : Fin cfg1.N, win1_2.index t (0 : Fin 2) = t.val ∧ win1_2.index t (1 : Fin 2) = 0 :=
  (by decide +kernel : ∀ t : Fin grid1.N, _)

/-- Window 2's block at point t is rows 4000 t … of its array. -/
theorem iblk1_2 (c : Dev nD) (t : Fin cfg1.N) :
    (iblk1 V c 2 t : S4000x1.Idx → EReal) = rows (4000 * t.val) (blk_le1 t) (V c main_v12 : S100000x1.Idx → EReal) := by
  obtain ⟨e0, e1⟩ := idx1_2 t
  funext y
  unfold iblk1
  rw [View.read_apply]
  show V c main_v12 (((cfg1.win 2).blk t).view.emb y) = V c main_v12 _
  refine congrArg (V c main_v12) ?_
  funext a; apply Fin.ext
  match a with
  | ⟨0, _⟩ => show win1_2.index t (0 : Fin 2) * 4000 + 1 * (y 0).val = 4000 * t.val + (y 0).val; rw [e0]; omega
  | ⟨1, _⟩ => show win1_2.index t (1 : Fin 2) * 1 + 1 * (y 1).val = (y 1).val; rw [e1]; omega

theorem idx1_3 : ∀ t : Fin cfg1.N, win1_3.index t (0 : Fin 2) = 0 ∧ win1_3.index t (1 : Fin 2) = 0 :=
  (by decide +kernel : ∀ t : Fin grid1.N, _)

/-- Window 3's block at every point is its whole array. -/
theorem iblk1_3 (c : Dev nD) (t : Fin cfg1.N) :
    (iblk1 V c 3 t : S128x128.Idx → EReal) = V c main_arg5 := by
  obtain ⟨e0, e1⟩ := idx1_3 t
  funext y
  unfold iblk1
  rw [View.read_apply]
  show V c main_arg5 (((cfg1.win 3).blk t).view.emb y) = V c main_arg5 _
  refine congrArg (V c main_arg5) ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem idx1_4 : ∀ t : Fin cfg1.N, win1_4.index t (0 : Fin 2) = 0 ∧ win1_4.index t (1 : Fin 2) = 0 :=
  (by decide +kernel : ∀ t : Fin grid1.N, _)

/-- Window 4's block at every point is its whole array. -/
theorem iblk1_4 (c : Dev nD) (t : Fin cfg1.N) :
    (iblk1 V c 4 t : S128x128.Idx → EReal) = V c main_arg6 := by
  obtain ⟨e0, e1⟩ := idx1_4 t
  funext y
  unfold iblk1
  rw [View.read_apply]
  show V c main_arg6 (((cfg1.win 4).blk t).view.emb y) = V c main_arg6 _
  refine congrArg (V c main_arg6) ?_
  funext a; apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem idx1_5 : ∀ t : Fin cfg1.N, win1_5.index t (0 : Fin 1) = 0 :=
  (by decide +kernel : ∀ t : Fin grid1.N, _)

/-- Window 5's block at every point is its whole array. -/
theorem iblk1_5 (c : Dev nD) (t : Fin cfg1.N) :
    (iblk1 V c 5 t : S128.Idx → EReal) = V c main_arg7 := by
  have e0 := idx1_5 t
  funext y
  unfold iblk1
  rw [View.read_apply]
  show V c main_arg7 (((cfg1.win 5).blk t).view.emb y) = V c main_arg7 _
  refine congrArg (V c main_arg7) ?_
  funext a; apply Fin.ext
  match a with
  | ⟨0, _⟩ => show win1_5.index t (0 : Fin 1) * 128 + 1 * (y 0).val = (y 0).val; rw [e0]; omega

theorem idx1_6 : ∀ t : Fin cfg1.N, win1_6.index t (0 : Fin 2) = t.val ∧ win1_6.index t (1 : Fin 2) = 0 :=
  (by decide +kernel : ∀ t : Fin grid1.N, _)

/-- The output window's block at point t, read off any whole array, is rows 4000 t … of it. -/
theorem oblk1_6 (c : Dev nD) (t : Fin cfg1.N) (G : S100000x128.Idx → EReal) :
    (((cfg1.win 6).blk t).view.read (Elt Ideal) G : S4000x128.Idx → EReal) = rows (4000 * t.val) (blk_le1 t) G := by
  obtain ⟨e0, e1⟩ := idx1_6 t
  funext y
  rw [View.read_apply]
  show G (((cfg1.win 6).blk t).view.emb y) = G _
  refine congrArg G ?_
  funext a; apply Fin.ext
  match a with
  | ⟨0, _⟩ => show win1_6.index t (0 : Fin 2) * 4000 + 1 * (y 0).val = 4000 * t.val + (y 0).val; rw [e0]; omega
  | ⟨1, _⟩ => show win1_6.index t (1 : Fin 2) * 128 + 1 * (y 1).val = (y 1).val; rw [e1]; omega

/-- An index of the result array is in point t's block iff its row is among rows 4000 t …. -/
theorem mem_blk1_6 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v25).slice (win1_6.rect t)).set ↔ _
  rw [View.set_slice_whole, Rect.mem_set_unit]
  exact Iff.rfl

/-- The 25 blocks of 4000 rows tile the 100000 rows. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 4000 < cfg1.N := by rw [show cfg1.N = 25 from N_1]; omega
  obtain ⟨e0, e1⟩ := idx1_6 ⟨(i 0).val / 4000, hN⟩
  refine ⟨⟨(i 0).val / 4000, hN⟩, flush1_6 _, ?_⟩
  rw [mem_blk1_6]
  intro a
  match a with
  | ⟨0, _⟩ =>
    show win1_6.index ⟨(i 0).val / 4000, hN⟩ (0 : Fin 2) * 4000 ≤ (i 0).val ∧ (i 0).val < win1_6.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hN⟩ (1 : Fin 2) * 128 ≤ (i 1).val ∧ (i 1).val < win1_6.index ⟨(i 0).val / 4000, hN⟩ (1 : Fin 2) * 128 + 128
    rw [e1]; omega

/-- The clamped degree is at least one at every node. -/
theorem one_le_deg (x1 : Cert.ReferenceIdeal.S2x1600000.Idx → BitVec 32) (r : Fin 100000) :
    1 ≤ Cert.ReferenceIdeal.Read.val_main_v23 (F := Ideal) x1 (ValueIdx.ix1 r) := by
  unfold Cert.ReferenceIdeal.Read.val_main_v23 Cert.ReferenceIdeal.Read.val_main_v22 Cert.ReferenceIdeal.Read.val_main_cst_3
  rw [ValueIdx.maximumf_apply, Cert.LibRowVector.inDimScalar_apply, ValueIdx.constant_apply, Cert.LibRecip.one_f32]
  exact le_max_right _ _

/-- The host's array of ones holds the number one at every node. -/
theorem ones_apply (r : Fin 100000) : (broadcastInDim S100000 ![] bcast_S_S100000 (constant (F := Ideal) S_ .f32 0x3F800000#32)) (ValueIdx.ix1 r) = (1 : EReal) := by
  rw [Cert.LibRowVector.inDimScalar_apply, ValueIdx.constant_apply, Cert.LibRecip.one_f32]

/-- The body's arithmetic on one block (the changes of float format and the casts of a shape to itself are the
    identity). -/
theorem pay1 (x0 : Vec Ideal S4000x128 .bf16) (x2 : Vec Ideal S4000x128 .f32) (x4 : Vec Ideal S4000x1 .f32)
    (Ws Wn : Vec Ideal S128x128 .f32) (b : Vec Ideal S128 .f32) :
    (k1_pay1 (F := Ideal) x0 x2 x4 Ws Wn b : S4000x128.Idx → EReal)
      = (maximumf (addf (addf
            (FloatOps.matmul (φ₁ := .bf16) (φ₂ := .bf16) dot_S4000x128_S128x128_S4000x128_1_0_0_1_n_n none x0 Ws (constant S4000x128 .f32 0x00000000#32))
            (FloatOps.matmul (φ₁ := .bf16) (φ₂ := .bf16) dot_S4000x128_S128x128_S4000x128_1_0_0_1_n_n none (mulf (F := Ideal) (φ := .f32) x2 (broadcastTo S4000x128 x4 broadcasts_S4000x1_S4000x128)) Wn (constant S4000x128 .f32 0x00000000#32)))
            (broadcastTo S4000x128 (shapeCast S1x128 b shapeCasts_S128_S1x128) broadcasts_S1x128_S4000x128))
          (broadcast S4000x128 (Scalar.ofBits (F := Ideal) .f32 0x00000000#32)) : FVec Ideal S4000x128 .f32) := by
  unfold k1_pay1
  simp only [shapeCast_self]
  rfl

/-- WHAT POINT t WRITES BACK is its block of rows of the reference's first convolution layer. -/
theorem flushed1 (c : Dev nD) (t : Fin cfg1.N)
    (x0 : Cert.ReferenceIdeal.S100000x256.Idx → EReal) (x1 : Cert.ReferenceIdeal.S2x1600000.Idx → BitVec 32) (x3 : Cert.ReferenceIdeal.S256x128.Idx → EReal) (x4 : Cert.ReferenceIdeal.S128.Idx → EReal)
    (x5 x6 : Cert.ReferenceIdeal.S128x128.Idx → EReal) (x7 : Cert.ReferenceIdeal.S128.Idx → EReal)
    (h13 : (V c main_v13 : S100000x128.Idx → EReal) = Cert.ReferenceIdeal.Read.val_main_v7 (F := Ideal) x0 x3 x4)
    (h24 : (V c main_v24 : S100000x128.Idx → EReal) = Cert.ReferenceIdeal.Read.val_main_v17 (F := Ideal) x0 x1 x3 x4)
    (h12 : (V c main_v12 : S100000x1.Idx → EReal) = (broadcastInDim S100000x1 ![0] bcast_S100000_S100000x1_0 (Host.divf (F := Ideal) (broadcastInDim S100000 ![] bcast_S_S100000 (constant (F := Ideal) S_ .f32 0x3F800000#32)) (Cert.ReferenceIdeal.Read.val_main_v23 (F := Ideal) x1))))
    (h5 : (V c main_arg5 : S128x128.Idx → EReal) = x5) (h6 : (V c main_arg6 : S128x128.Idx → EReal) = x6)
    (h7 : (V c main_arg7 : S128.Idx → EReal) = x7) :
    (dat1 V c).flushed 6 t = ((cfg1.win 6).blk t).view.read (Elt Ideal) (Cert.ReferenceIdeal.Read.val_main_v33 (F := Ideal) x0 x1 x3 x4 x5 x6 x7) := by
  show (cfg1.win 6).cut (grid1.coords t) ((dat1 V c).after 6 t) = _
  rw [after1_6]
  unfold out1_6
  rw [View.canon_unit_zero hz2]
  simp only [View.ld_unit_zero (S := S4000x128) hz2, View.ld_unit_zero (S := S4000x1) hz2, View.ld_unit_zero (S := S128x128) hz2, View.ld_unit_zero (S := S128) hz1]
  rw [iblk1_0, iblk1_1, iblk1_2, iblk1_3, iblk1_4, iblk1_5, h13, h24, h12, h5, h6, h7]
  show (k1_pay1 (F := Ideal) _ _ _ x5 x6 x7 : S4000x128.Idx → EReal) = _
  rw [pay1]
  refine Eq.trans ?_ (oblk1_6 c t _).symm
  unfold Cert.ReferenceIdeal.Read.val_main_v33 Cert.ReferenceIdeal.Read.val_main_v32 Cert.ReferenceIdeal.Read.val_main_v29 Cert.ReferenceIdeal.Read.val_main_v27 Cert.ReferenceIdeal.Read.val_main_v28 Cert.ReferenceIdeal.Read.val_main_v26
    Cert.ReferenceIdeal.Read.val_main_v25 Cert.ReferenceIdeal.Read.val_main_v24 Cert.ReferenceIdeal.Read.val_main_v31 Cert.ReferenceIdeal.Read.val_main_v30 Cert.ReferenceIdeal.Read.val_main_call0_v0 Cert.ReferenceIdeal.Read.val_main_call0_cst
  rw [Cert.LibRowBlock.rows_maximumf, Cert.LibRowBlock.rows_addf, Cert.LibRowBlock.rows_addf,
    Cert.LibRowBlock.rows_dotGeneral (4000 * t.val) (blk_le1 t) Cert.ReferenceIdeal.dot_S100000x128_S128x128_S100000x128_1_0_0_1_n_n rfl rfl rfl rfl rfl rfl dot_S4000x128_S128x128_S4000x128_1_0_0_1_n_n rfl rfl rfl rfl rfl rfl,
    Cert.LibRowBlock.rows_dotGeneral (4000 * t.val) (blk_le1 t) Cert.ReferenceIdeal.dot_S100000x128_S128x128_S100000x128_1_0_0_1_n_n rfl rfl rfl rfl rfl rfl dot_S4000x128_S128x128_S4000x128_1_0_0_1_n_n rfl rfl rfl rfl rfl rfl,
    Cert.LibRowBlock.rows_divide_count (4000 * t.val) (blk_le1 t) _ (Cert.ReferenceIdeal.Read.val_main_v23 (F := Ideal) x1) (one_le_deg x1) (broadcastInDim S100000 ![] bcast_S_S100000 (constant (F := Ideal) S_ .f32 0x3F800000#32)) ones_apply
      Cert.ReferenceIdeal.Gen.bcast_S100000_S100000x1_0 Cert.ReferenceIdeal.Gen.bcast_S100000x1_S100000x128_0_1 broadcasts_S4000x1_S4000x128,
    Cert.LibRowBlock.rows_bias (4000 * t.val) (blk_le1 t) x7 Cert.ReferenceIdeal.Gen.bcast_S128_S1x128_1 Cert.ReferenceIdeal.Gen.bcast_S1x128_S100000x128_0_1
      shapeCasts_S128_S1x128 broadcasts_S1x128_S4000x128,
    Cert.LibRowBlock.rows_splat (4000 * t.val) (blk_le1 t) 0x00000000#32 Cert.ReferenceIdeal.Gen.bcast_S_S100000x128]
  rfl

/-- THE RESULT ARRAY after the region: the reference's first convolution layer. -/
theorem final1 (c : Dev nD)
    (x0 : Cert.ReferenceIdeal.S100000x256.Idx → EReal) (x1 : Cert.ReferenceIdeal.S2x1600000.Idx → BitVec 32) (x3 : Cert.ReferenceIdeal.S256x128.Idx → EReal) (x4 : Cert.ReferenceIdeal.S128.Idx → EReal)
    (x5 x6 : Cert.ReferenceIdeal.S128x128.Idx → EReal) (x7 : Cert.ReferenceIdeal.S128.Idx → EReal)
    (h13 : (V c main_v13 : S100000x128.Idx → EReal) = Cert.ReferenceIdeal.Read.val_main_v7 (F := Ideal) x0 x3 x4)
    (h24 : (V c main_v24 : S100000x128.Idx → EReal) = Cert.ReferenceIdeal.Read.val_main_v17 (F := Ideal) x0 x1 x3 x4)
    (h12 : (V c main_v12 : S100000x1.Idx → EReal) = (broadcastInDim S100000x1 ![0] bcast_S100000_S100000x1_0 (Host.divf (F := Ideal) (broadcastInDim S100000 ![] bcast_S_S100000 (constant (F := Ideal) S_ .f32 0x3F800000#32)) (Cert.ReferenceIdeal.Read.val_main_v23 (F := Ideal) x1))))
    (h5 : (V c main_arg5 : S128x128.Idx → EReal) = x5) (h6 : (V c main_arg6 : S128x128.Idx → EReal) = x6)
    (h7 : (V c main_arg7 : S128.Idx → EReal) = x7) :
    (dat1 V c).arrAt 6 cfg1.N = Cert.ReferenceIdeal.Read.val_main_v33 (F := Ideal) x0 x1 x3 x4 x5 x6 x7 :=
  (dat1 V c).arrAt_eq_of_cover 6 _ (fun t _ => flushed1 V c t x0 x1 x3 x4 x5 x6 x7 h13 h24 h12 h5 h6 h7) cover1

end Region1

end Cert.KernelIdeal.Hand

end
-- ==== Proof.Region2Win.lean ====
/-
  The third kernel region's windows: at grid point t the four row-tiled inputs (the first layer's features, their
  neighbour sums, the reciprocal-degree column, the edge attributes) are read at rows 4000 t, …, 4000 t + 3999, the
  sixteen weight and bias inputs whole, and the result column is written back at the same rows; the 25 blocks of
  the result tile its 100000 rows.
-/
import proofs.«170601_j32031866093971_2_alg».proof.Proof.Region0
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.LibRowBlock (rows)

section Region2

variable (V : (c : Dev nD) → (b : Ref sig .tc) → Buf (Elt Ideal) ((c : Thread nD τ).loc b))

theorem lt25_2 (t : Fin cfg2.N) : t.val < 25 := lt_of_lt_of_eq t.isLt N_2

theorem blk_le2 (t : Fin cfg2.N) : 4000 * t.val + 4000 ≤ 100000 := by have := lt25_2 t; omega

theorem idx2_0 : ∀ t : Fin cfg2.N, win2_0.index t (0 : Fin 2) = t.val ∧ win2_0.index t (1 : Fin 2) = 0 :=
  (by decide +kernel : ∀ t : Fin grid2.N, _)

/-- Window 0's block at point t is rows 4000 t … of its array. -/
theorem iblk2_0 (c : Dev nD) (t : Fin cfg2.N) :
    (iblk2 V c 0 t : S4000x128.Idx → EReal) = rows (4000 * t.val) (blk_le2 t) (V c main_v25 : S100000x128.Idx → EReal) := by
  obtain ⟨e0, e1⟩ := idx2_0 t
  funext y
  unfold iblk2
  rw [View.read_apply]
  show V c main_v25 (((cfg2.win 0).blk t).view.emb y) = V c main_v25 _
  refine congrArg (V c main_v25) ?_
  funext a; apply Fin.ext
  match a with
  | ⟨0, _⟩ => show win2_0.index t (0 : Fin 2) * 4000 + 1 * (y 0).val = 4000 * t.val + (y 0).val; rw [e0]; omega
  | ⟨1, _⟩ => show win2_0.index t (1 : Fin 2) * 128 + 1 * (y 1).val = (y 1).val; rw [e1]; omega

theorem idx2_1 : ∀ t : Fin cfg2.N, win2_1.index t (0 : Fin 2) = t.val ∧ win2_1.index t (1 : Fin 2) = 0 :=
  (by decide +kernel : ∀ t : Fin grid2.N, _)

/-- Window 1's block at point t is rows 4000 t … of its array. -/
theorem iblk2_1 (c : Dev nD) (t : Fin cfg2.N) :
    (iblk2 V c 1 t : S4000x128.Idx → EReal) = rows (4000 * t.val) (blk_le2 t) (V c main_v36 : S100000x128.Idx → EReal) := by
  obtain ⟨e0, e1⟩ := idx2_1 t
  funext y
  unfold iblk2
  rw [View.read_apply]
  show V c main_v36 (((cfg2.win 1).blk t).view.emb y) = V c main_v36 _
  refine congrArg (V c main_v36) ?_
  funext a; apply Fin.ext
  match a with
  | ⟨0, _⟩ => show win2_1.index t (0 : Fin 2) * 4000 + 1 * (y 0).val = 4000 * t.val + (y 0).val; rw [e0]; omega
  | ⟨1, _⟩ => show win2_1.index t (1 : Fin 2) * 128 + 1 * (y 1).val = (y 1).val; rw [e1]; omega

theorem idx2_2 : ∀ t : Fin cfg2.N, win2_2.index t (0 : Fin 2) = t.val ∧ win2_2.index t (1 : Fin 2) = 0 :=
  (by decide +kernel : ∀ t : Fin grid2.N, _)

/-- Window 2's block at point t is rows 4000 t … of its array. -/
theorem iblk2_2 (c : Dev nD) (t : Fin cfg2.N) :
    (iblk2 V c 2 t : S4000x1.Idx → EReal) = rows (4000 * t.val) (blk_le2 t) (V c main_v12 : S100000x1.Idx → EReal) := by
  obtain ⟨e0, e1⟩ := idx2_2 t
  funext y
  unfold iblk2
  rw [View.read_apply]
  show V c main_v12 (((cfg2.win 2).blk t).view.emb y) = V c main_v12 _
  refine congrArg (V c main_v12) ?_
  funext a; apply Fin.ext
  match a with
  | ⟨0, _⟩ => show win2_2.index t (0 : Fin 2) * 4000 + 1 * (y 0).val = 4000 * t.val + (y 0).val; rw [e0]; omega
  | ⟨1, _⟩ => show win2_2.index t (1 : Fin 2) * 1 + 1 * (y 1).val = (y 1).val; rw [e1]; omega

theorem idx2_3 : ∀ t : Fin cfg2.N, win2_3.index t (0 : Fin 2) = t.val ∧ win2_3.index t (1 : Fin 2) = 0 :=
  (by decide +kernel : ∀ t : Fin grid2.N, _)

/-- Window 3's block at point t is rows 4000 t … of its array. -/
theorem iblk2_3 (c : Dev nD) (t : Fin cfg2.N) :
    (iblk2 V c 3 t : S4000x5.Idx → EReal) = rows (4000 * t.val) (blk_le2 t) (V c main_arg2 : S100000x5.Idx → EReal) := by
  obtain ⟨e0, e1⟩ := idx2_3 t
  funext y
  unfold iblk2
  rw [View.read_apply]
  show V c main_arg2 (((cfg2.win 3).blk t).view.emb y) = V c main_arg2 _
  refine congrArg (V c main_arg2) ?_
  funext a; apply Fin.ext
  match a with
  | ⟨0, _⟩ => show win2_3.index t (0 : Fin 2) * 4000 + 1 * (y 0).val = 4000 * t.val + (y 0).val; rw [e0]; omega
  | ⟨1, _⟩ => show win2_3.index t (1 : Fin 2) * 5 + 1 * (y 1).val = (y 1).val; rw [e1]; omega

theorem idx2_4 : ∀ t : Fin cfg2.N, win2_4.index t (0 : Fin 2) = 0 ∧ win2_4.index t (1 : Fin 2) = 0 :=
  (by decide +kernel : ∀ t : Fin grid2.N, _)

/-- Window 4's block at every point is its whole array. -/
theorem iblk2_4 (c : Dev nD) (t : Fin cfg2.N) :
    (iblk2 V c 4 t : S128x128.Idx → EReal) = V c main_arg8 := by
  obtain ⟨e0, e1⟩ := idx2_4 t
  funext y
  unfold iblk2
  rw [View.read_apply]
  show V c main_arg8 (((cfg2.win 4).blk t).view.emb y) = V c main_arg8 _
  refine congrArg (V c main_arg8) ?_
  funext a; apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

theorem idx2_5 : ∀ t : Fin cfg2.N, win2_5.index t (0 : Fin 2) = 0 ∧ win2_5.index t (1 : Fin 2) = 0 :=
  (by decide +kernel : ∀ t : Fin grid2.N, _)

/-- Window 5's block at every point is its whole array. -/
theorem iblk2_5 (c : Dev nD) (t : Fin cfg2.N) :
    (iblk2 V c 5 t : S128x128.Idx → EReal) = V c main_arg9 := by
  obtain ⟨e0, e1⟩ := idx2_5 t
  funext y
  unfold iblk2
  rw [View.read_apply]
  show V c main_arg9 (((cfg2.win 5).blk t).view.emb y) = V c main_arg9 _
  refine congrArg (V c main_arg9) ?_
  funext a; apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

theorem idx2_6 : ∀ t : Fin cfg2.N, win2_6.index t (0 : Fin 1) = 0 :=
  (by decide +kernel : ∀ t : Fin grid2.N, _)

/-- Window 6's block at every point is its whole array. -/
theorem iblk2_6 (c : Dev nD) (t : Fin cfg2.N) :
    (iblk2 V c 6 t : S128.Idx → EReal) = V c main_arg10 := by
  have e0 := idx2_6 t
  funext y
  unfold iblk2
  rw [View.read_apply]
  show V c main_arg10 (((cfg2.win 6).blk t).view.emb y) = V c main_arg10 _
  refine congrArg (V c main_arg10) ?_
  funext a; apply Fin.ext
  match a with
  | ⟨0, _⟩ => show win2_6.index t (0 : Fin 1) * 128 + 1 * (y 0).val = (y 0).val; rw [e0]; omega

theorem idx2_7 : ∀ t : Fin cfg2.N, win2_7.index t (0 : Fin 2) = 0 ∧ win2_7.index t (1 : Fin 2) = 0 :=
  (by decide +kernel : ∀ t : Fin grid2.N, _)

/-- Window 7's block at every point is its whole array. -/
theorem iblk2_7 (c : Dev nD) (t : Fin cfg2.N) :
    (iblk2 V c 7 t : S128x128.Idx → EReal) = V c main_arg11 := by
  obtain ⟨e0, e1⟩ := idx2_7 t
  funext y
  unfold iblk2
  rw [View.read_apply]
  show V c main_arg11 (((cfg2.win 7).blk t).view.emb y) = V c main_arg11 _
  refine congrArg (V c main_arg11) ?_
  funext a; apply Fin.ext
  match a with
  | ⟨0, _⟩ => show win2_7.index t (0 : Fin 2) * 128 + 1 * (y 0).val = (y 0).val; rw [e0]; omega
  | ⟨1, _⟩ => show win2_7.index t (1 : Fin 2) * 128 + 1 * (y 1).val = (y 1).val; rw [e1]; omega

theorem idx2_8 : ∀ t : Fin cfg2.N, win2_8.index t (0 : Fin 1) = 0 :=
  (by decide +kernel : ∀ t : Fin grid2.N, _)

/-- Window 8's block at every point is its whole array. -/
theorem iblk2_8 (c : Dev nD) (t : Fin cfg2.N) :
    (iblk2 V c 8 t : S128.Idx → EReal) = V c main_arg12 := by
  have e0 := idx2_8 t
  funext y
  unfold iblk2
  rw [View.read_apply]
  show V c main_arg12 (((cfg2.win 8).blk t).view.emb y) = V c main_arg12 _
  refine congrArg (V c main_arg12) ?_
  funext a; apply Fin.ext
  match a with
  | ⟨0, _⟩ => show win2_8.index t (0 : Fin 1) * 128 + 1 * (y 0).val = (y 0).val; rw [e0]; omega

theorem idx2_9 : ∀ t : Fin cfg2.N, win2_9.index t (0 : Fin 2) = 0 ∧ win2_9.index t (1 : Fin 2) = 0 :=
  (by decide +kernel : ∀ t : Fin grid2.N, _)

/-- Window 9's block at every point is its whole array. -/
theorem iblk2_9 (c : Dev nD) (t : Fin cfg2.N) :
    (iblk2 V c 9 t : S5x128.Idx → EReal) = V c main_arg13 := by
  obtain ⟨e0, e1⟩ := idx2_9 t
  funext y
  unfold iblk2
  rw [View.read_apply]
  show V c main_arg13 (((cfg2.win 9).blk t).view.emb y) = V c main_arg13 _
  refine congrArg (V c main_arg13) ?_
  funext a; apply Fin.ext
  match a with
  | ⟨0, _⟩ => show win2_9.index t (0 : Fin 2) * 5 + 1 * (y 0).val = (y 0).val; rw [e0]; omega
  | ⟨1, _⟩ => show win2_9.index t (1 : Fin 2) * 128 + 1 * (y 1).val = (y 1).val; rw [e1]; omega

theorem idx2_10 : ∀ t : Fin cfg2.N, win2_10.index t (0 : Fin 1) = 0 :=
  (by decide +kernel : ∀ t : Fin grid2.N, _)

/-- Window 10's block at every point is its whole array. -/
theorem iblk2_10 (c : Dev nD) (t : Fin cfg2.N) :
    (iblk2 V c 10 t : S128.Idx → EReal) = V c main_arg14 := by
  have e0 := idx2_10 t
  funext y
  unfold iblk2
  rw [View.read_apply]
  show V c main_arg14 (((cfg2.win 10).blk t).view.emb y) = V c main_arg14 _
  refine congrArg (V c main_arg14) ?_
  funext a; apply Fin.ext
  match a with
  | ⟨0, _⟩ => show win2_10.index t (0 : Fin 1) * 128 + 1 * (y 0).val = (y 0).val; rw [e0]; omega

theorem idx2_11 : ∀ t : Fin cfg2.N, win2_11.index t (0 : Fin 2) = 0 ∧ win2_11.index t (1 : Fin 2) = 0 :=
  (by decide +kernel : ∀ t : Fin grid2.N, _)

/-- Window 11's block at every point is its whole array. -/
theorem iblk2_11 (c : Dev nD) (t : Fin cfg2.N) :
    (iblk2 V c 11 t : S128x128.Idx → EReal) = V c main_arg15 := by
  obtain ⟨e0, e1⟩ := idx2_11 t
  funext y
  unfold iblk2
  rw [View.read_apply]
  show V c main_arg15 (((cfg2.win 11).blk t).view.emb y) = V c main_arg15 _
  refine congrArg (V c main_arg15) ?_
  funext a; apply Fin.ext
  match a with
  | ⟨0, _⟩ => show win2_11.index t (0 : Fin 2) * 128 + 1 * (y 0).val = (y 0).val; rw [e0]; omega
  | ⟨1, _⟩ => show win2_11.index t (1 : Fin 2) * 128 + 1 * (y 1).val = (y 1).val; rw [e1]; omega

theorem idx2_12 : ∀ t : Fin cfg2.N, win2_12.index t (0 : Fin 1) = 0 :=
  (by decide +kernel : ∀ t : Fin grid2.N, _)

/-- Window 12's block at every point is its whole array. -/
theorem iblk2_12 (c : Dev nD) (t : Fin cfg2.N) :
    (iblk2 V c 12 t : S128.Idx → EReal) = V c main_arg16 := by
  have e0 := idx2_12 t
  funext y
  unfold iblk2
  rw [View.read_apply]
  show V c main_arg16 (((cfg2.win 12).blk t).view.emb y) = V c main_arg16 _
  refine congrArg (V c main_arg16) ?_
  funext a; apply Fin.ext
  match a with
  | ⟨0, _⟩ => show win2_12.index t (0 : Fin 1) * 128 + 1 * (y 0).val = (y 0).val; rw [e0]; omega

theorem idx2_13 : ∀ t : Fin cfg2.N, win2_13.index t (0 : Fin 2) = 0 ∧ win2_13.index t (1 : Fin 2) = 0 :=
  (by decide +kernel : ∀ t : Fin grid2.N, _)

/-- Window 13's block at every point is its whole array. -/
theorem iblk2_13 (c : Dev nD) (t : Fin cfg2.N) :
    (iblk2 V c 13 t : S128x128.Idx → EReal) = V c main_arg17 := by
  obtain ⟨e0, e1⟩ := idx2_13 t
  funext y
  unfold iblk2
  rw [View.read_apply]
  show V c main_arg17 (((cfg2.win 13).blk t).view.emb y) = V c main_arg17 _
  refine congrArg (V c main_arg17) ?_
  funext a; apply Fin.ext
  match a with
  | ⟨0, _⟩ => show win2_13.index t (0 : Fin 2) * 128 + 1 * (y 0).val = (y 0).val; rw [e0]; omega
  | ⟨1, _⟩ => show win2_13.index t (1 : Fin 2) * 128 + 1 * (y 1).val = (y 1).val; rw [e1]; omega

theorem idx2_14 : ∀ t : Fin cfg2.N, win2_14.index t (0 : Fin 1) = 0 :=
  (by decide +kernel : ∀ t : Fin grid2.N, _)

/-- Window 14's block at every point is its whole array. -/
theorem iblk2_14 (c : Dev nD) (t : Fin cfg2.N) :
    (iblk2 V c 14 t : S128.Idx → EReal) = V c main_arg18 := by
  have e0 := idx2_14 t
  funext y
  unfold iblk2
  rw [View.read_apply]
  show V c main_arg18 (((cfg2.win 14).blk t).view.emb y) = V c main_arg18 _
  refine congrArg (V c main_arg18) ?_
  funext a; apply Fin.ext
  match a with
  | ⟨0, _⟩ => show win2_14.index t (0 : Fin 1) * 128 + 1 * (y 0).val = (y 0).val; rw [e0]; omega

theorem idx2_15 : ∀ t : Fin cfg2.N, win2_15.index t (0 : Fin 2) = 0 ∧ win2_15.index t (1 : Fin 2) = 0 :=
  (by decide +kernel : ∀ t : Fin grid2.N, _)

/-- Window 15's block at every point is its whole array. -/
theorem iblk2_15 (c : Dev nD) (t : Fin cfg2.N) :
    (iblk2 V c 15 t : S128x128.Idx → EReal) = V c main_arg19 := by
  obtain ⟨e0, e1⟩ := idx2_15 t
  funext y
  unfold iblk2
  rw [View.read_apply]
  show V c main_arg19 (((cfg2.win 15).blk t).view.emb y) = V c main_arg19 _
  refine congrArg (V c main_arg19) ?_
  funext a; apply Fin.ext
  match a with
  | ⟨0, _⟩ => show win2_15.index t (0 : Fin 2) * 128 + 1 * (y 0).val = (y 0).val; rw [e0]; omega
  | ⟨1, _⟩ => show win2_15.index t (1 : Fin 2) * 128 + 1 * (y 1).val = (y 1).val; rw [e1]; omega

theorem idx2_16 : ∀ t : Fin cfg2.N, win2_16.index t (0 : Fin 1) = 0 :=
  (by decide +kernel : ∀ t : Fin grid2.N, _)

/-- Window 16's block at every point is its whole array. -/
theorem iblk2_16 (c : Dev nD) (t : Fin cfg2.N) :
    (iblk2 V c 16 t : S128.Idx → EReal) = V c main_arg20 := by
  have e0 := idx2_16 t
  funext y
  unfold iblk2
  rw [View.read_apply]
  show V c main_arg20 (((cfg2.win 16).blk t).view.emb y) = V c main_arg20 _
  refine congrArg (V c main_arg20) ?_
  funext a; apply Fin.ext
  match a with
  | ⟨0, _⟩ => show win2_16.index t (0 : Fin 1) * 128 + 1 * (y 0).val = (y 0).val; rw [e0]; omega

theorem idx2_17 : ∀ t : Fin cfg2.N, win2_17.index t (0 : Fin 2) = 0 ∧ win2_17.index t (1 : Fin 2) = 0 :=
  (by decide +kernel : ∀ t : Fin grid2.N, _)

/-- Window 17's block at every point is its whole array. -/
theorem iblk2_17 (c : Dev nD) (t : Fin cfg2.N) :
    (iblk2 V c 17 t : S128x1.Idx → EReal) = V c main_v37 := by
  obtain ⟨e0, e1⟩ := idx2_17 t
  funext y
  unfold iblk2
  rw [View.read_apply]
  show V c main_v37 (((cfg2.win 17).blk t).view.emb y) = V c main_v37 _
  refine congrArg (V c main_v37) ?_
  funext a; apply Fin.ext
  match a with
  | ⟨0, _⟩ => show win2_17.index t (0 : Fin 2) * 128 + 1 * (y 0).val = (y 0).val; rw [e0]; omega
  | ⟨1, _⟩ => show win2_17.index t (1 : Fin 2) * 1 + 1 * (y 1).val = (y 1).val; rw [e1]; omega

theorem idx2_18 : ∀ t : Fin cfg2.N, win2_18.index t (0 : Fin 2) = 0 ∧ win2_18.index t (1 : Fin 2) = 0 :=
  (by decide +kernel : ∀ t : Fin grid2.N, _)

/-- Window 18's block at every point is its whole array. -/
theorem iblk2_18 (c : Dev nD) (t : Fin cfg2.N) :
    (iblk2 V c 18 t : S128x1.Idx → EReal) = V c main_v38 := by
  obtain ⟨e0, e1⟩ := idx2_18 t
  funext y
  unfold iblk2
  rw [View.read_apply]
  show V c main_v38 (((cfg2.win 18).blk t).view.emb y) = V c main_v38 _
  refine congrArg (V c main_v38) ?_
  funext a; apply Fin.ext
  match a with
  | ⟨0, _⟩ => show win2_18.index t (0 : Fin 2) * 128 + 1 * (y 0).val = (y 0).val; rw [e0]; omega
  | ⟨1, _⟩ => show win2_18.index t (1 : Fin 2) * 1 + 1 * (y 1).val = (y 1).val; rw [e1]; omega

theorem idx2_19 : ∀ t : Fin cfg2.N, win2_19.index t (0 : Fin 1) = 0 :=
  (by decide +kernel : ∀ t : Fin grid2.N, _)

/-- Window 19's block at every point is its whole array. -/
theorem iblk2_19 (c : Dev nD) (t : Fin cfg2.N) :
    (iblk2 V c 19 t : S1.Idx → EReal) = V c main_arg22 := by
  have e0 := idx2_19 t
  funext y
  unfold iblk2
  rw [View.read_apply]
  show V c main_arg22 (((cfg2.win 19).blk t).view.emb y) = V c main_arg22 _
  refine congrArg (V c main_arg22) ?_
  funext a; apply Fin.ext
  match a with
  | ⟨0, _⟩ => show win2_19.index t (0 : Fin 1) * 1 + 1 * (y 0).val = (y 0).val; rw [e0]; omega

theorem idx2_20 : ∀ t : Fin cfg2.N, win2_20.index t (0 : Fin 2) = t.val ∧ win2_20.index t (1 : Fin 2) = 0 :=
  (by decide +kernel : ∀ t : Fin grid2.N, _)

/-- The output window's block at point t, read off any whole array, is rows 4000 t … of it. -/
theorem oblk2_20 (c : Dev nD) (t : Fin cfg2.N) (G : S100000x1.Idx → EReal) :
    (((cfg2.win 20).blk t).view.read (Elt Ideal) G : S4000x1.Idx → EReal) = rows (4000 * t.val) (blk_le2 t) G := by
  obtain ⟨e0, e1⟩ := idx2_20 t
  funext y
  rw [View.read_apply]
  show G (((cfg2.win 20).blk t).view.emb y) = G _
  refine congrArg G ?_
  funext a; apply Fin.ext
  match a with
  | ⟨0, _⟩ => show win2_20.index t (0 : Fin 2) * 4000 + 1 * (y 0).val = 4000 * t.val + (y 0).val; rw [e0]; omega
  | ⟨1, _⟩ => show win2_20.index t (1 : Fin 2) * 1 + 1 * (y 1).val = (y 1).val; rw [e1]; omega

/-- An index of the result array is in point t's block iff its row is among rows 4000 t …. -/
theorem mem_blk2_20 (t : Fin cfg2.N) (i : S100000x1.Idx) :
    i ∈ ((cfg2.win 20).blk t).view.set ↔ ∀ a : Fin 2, win2_20.index t a * S4000x1.size a ≤ (i a).val ∧ (i a).val < win2_20.index t a * S4000x1.size a + S4000x1.size a := by
  show i ∈ ((View.whole main_v39).slice (win2_20.rect t)).set ↔ _
  rw [View.set_slice_whole, Rect.mem_set_unit]
  exact Iff.rfl

/-- The 25 blocks of 4000 rows tile the 100000 rows. -/
theorem cover2 (i : S100000x1.Idx) : ∃ t : Fin cfg2.N, (cfg2.win 20).flush t = true ∧ i ∈ ((cfg2.win 20).blk t).view.set := by
  have hi0 : (i 0).val < 100000 := (i 0).isLt
  have hi1 : (i 1).val < 1 := (i 1).isLt
  have hN : (i 0).val / 4000 < cfg2.N := by rw [show cfg2.N = 25 from N_2]; omega
  obtain ⟨e0, e1⟩ := idx2_20 ⟨(i 0).val / 4000, hN⟩
  refine ⟨⟨(i 0).val / 4000, hN⟩, flush2_20 _, ?_⟩
  rw [mem_blk2_20]
  intro a
  match a with
  | ⟨0, _⟩ =>
    show win2_20.index ⟨(i 0).val / 4000, hN⟩ (0 : Fin 2) * 4000 ≤ (i 0).val ∧ (i 0).val < win2_20.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win2_20.index ⟨(i 0).val / 4000, hN⟩ (1 : Fin 2) * 1 ≤ (i 1).val ∧ (i 1).val < win2_20.index ⟨(i 0).val / 4000, hN⟩ (1 : Fin 2) * 1 + 1
    rw [e1]; omega

end Region2

end Cert.KernelIdeal.Hand

end
-- ==== Proof.LibRowJoin.lean ====
/-
  A product against two arrays joined side by side, read through a block of rows.

  If z is the array whose row r is row r of A followed by row r of B, then entry (r, q) of z·W is
  ∑ k, A (r, k) · W (k, q) + ∑ k, B (r, k) · W (K₁ + k, q): the sum over the joined axis splits at the seam.  So the
  block of rows of the host's product z·W is the sum of the matrix unit's products of the blocks of A and of B with
  the upper and the lower rows of W.  Only associativity and commutativity of + are used, so this holds at every
  extended real.  The logistic function acts entry by entry, so it commutes with taking a block of rows.
-/
import proofs.«170601_j32031866093971_2_alg».proof.Proof.LibRowBlock

noncomputable section

namespace Cert.LibRowBlock

open Idealize.ShloMosaic Idealize.ShloMosaic.ValueIdx

variable {M B N : ℕ}

theorem rows_logistic {φ : FTy} (o : ℕ) (h : o + B ≤ M) (a : FVec Ideal ⟨2, ![M, N]⟩ φ) :
    rows o h (logistic a) = logistic (rows o h a) := rfl

theorem rows_dot_join {K K1 K2 : ℕ} (hK : K = K1 + K2) (o : ℕ) (h : o + B ≤ M)
    (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (d1 : DotDims ⟨2, ![B, K1]⟩ ⟨2, ![K1, N]⟩ ⟨2, ![B, N]⟩)
    (k1 : d1.lhsContracting = [1]) (k2 : d1.rhsContracting = [0]) (k3 : d1.lhsNonContracting = [0])
    (k4 : d1.rhsNonContracting = [1]) (k5 : d1.lhsBatch = []) (k6 : d1.rhsBatch = [])
    (d2 : DotDims ⟨2, ![B, K2]⟩ ⟨2, ![K2, N]⟩ ⟨2, ![B, N]⟩)
    (l1 : d2.lhsContracting = [1]) (l2 : d2.rhsContracting = [0]) (l3 : d2.lhsNonContracting = [0])
    (l4 : d2.rhsNonContracting = [1]) (l5 : d2.lhsBatch = []) (l6 : d2.rhsBatch = [])
    (A : FVec Ideal ⟨2, ![M, K1]⟩ .f32) (Bm : FVec Ideal ⟨2, ![M, K2]⟩ .f32) (W : FVec Ideal ⟨2, ![K, N]⟩ .f32)
    (hcat : Shape.Concatenates [(⟨2, ![M, K1]⟩ : Shape), ⟨2, ![M, K2]⟩] ⟨2, ![M, K]⟩ (1 : Fin 2))
    (hs1 : (⟨2, ![K, N]⟩ : Shape).Slices ![0, 0] ⟨2, ![K1, N]⟩) (hs2 : (⟨2, ![K, N]⟩ : Shape).Slices ![K1, 0] ⟨2, ![K2, N]⟩) :
    rows o h (Host.dotGeneral d none
        (concatenate ⟨2, ![M, K]⟩ (1 : Fin 2) [⟨⟨2, ![M, K1]⟩, A⟩, ⟨⟨2, ![M, K2]⟩, Bm⟩] hcat) W)
      = addf (FloatOps.matmul (φ₁ := .bf16) (φ₂ := .bf16) d1 none (rows o h A) (extractStridedSlice ⟨2, ![K1, N]⟩ ![0, 0] W hs1) (constant ⟨2, ![B, N]⟩ .f32 0x00000000#32))
          (FloatOps.matmul (φ₁ := .bf16) (φ₂ := .bf16) d2 none (rows o h Bm) (extractStridedSlice ⟨2, ![K2, N]⟩ ![K1, 0] W hs2) (constant ⟨2, ![B, N]⟩ .f32 0x00000000#32)) := by
  subst hK
  refine arr_ext fun p q => ?_
  rw [rows_apply, LibProduct.dotGeneral_apply d h1 h2 h3 h4 h5 h6, addf_apply,
    LibProduct.matmul_zero_apply d1 k1 k2 k3 k4 k5 k6, LibProduct.matmul_zero_apply d2 l1 l2 l3 l4 l5 l6, Fin.sum_univ_add]
  have hr : o + p.val < M := by have := p.isLt; omega
  congr 1
  · refine Finset.sum_congr rfl fun c _ => ?_
    have hl : concatenate ⟨2, ![M, K1 + K2]⟩ (1 : Fin 2) [⟨⟨2, ![M, K1]⟩, A⟩, ⟨⟨2, ![M, K2]⟩, Bm⟩] hcat (ix2 (⟨o + p.val, hr⟩ : Fin M) (Fin.castAdd K2 c))
        = A (ix2 (⟨o + p.val, hr⟩ : Fin M) c) :=
      concatenate_pair_apply_left (t := ⟨2, ![M, K1 + K2]⟩) (s₁ := ⟨2, ![M, K1]⟩) (s₂ := ⟨2, ![M, K2]⟩) (1 : Fin 2) A Bm hcat
        (ix2 (⟨o + p.val, hr⟩ : Fin M) (Fin.castAdd K2 c)) rfl (ix2 (⟨o + p.val, hr⟩ : Fin M) c) (fun b => by
          match b with
          | ⟨0, _⟩ => rfl
          | ⟨1, _⟩ => rfl)
    have hw : extractStridedSlice ⟨2, ![K1, N]⟩ ![0, 0] W hs1 (ix2 c q) = W (ix2 (Fin.castAdd K2 c) q) :=
      extractStridedSlice_apply ![0, 0] W hs1 (ix2 c q) (ix2 (Fin.castAdd K2 c) q) (fun a => by
        match a with
        | ⟨0, _⟩ => show c.val = 0 + c.val; omega
        | ⟨1, _⟩ => show q.val = 0 + q.val; omega)
    rw [hl, hw, rows_apply]
  · refine Finset.sum_congr rfl fun c _ => ?_
    have hl : concatenate ⟨2, ![M, K1 + K2]⟩ (1 : Fin 2) [⟨⟨2, ![M, K1]⟩, A⟩, ⟨⟨2, ![M, K2]⟩, Bm⟩] hcat (ix2 (⟨o + p.val, hr⟩ : Fin M) (Fin.natAdd K1 c))
        = Bm (ix2 (⟨o + p.val, hr⟩ : Fin M) c) :=
      concatenate_pair_apply_right (t := ⟨2, ![M, K1 + K2]⟩) (s₁ := ⟨2, ![M, K1]⟩) (s₂ := ⟨2, ![M, K2]⟩) (1 : Fin 2) A Bm hcat
        (ix2 (⟨o + p.val, hr⟩ : Fin M) (Fin.natAdd K1 c)) rfl rfl (ix2 (⟨o + p.val, hr⟩ : Fin M) c) (fun b => by
          match b with
          | ⟨0, _⟩ => exact fun _ => rfl
          | ⟨1, _⟩ => exact fun hne => absurd rfl hne) (by show c.val + K1 = K1 + c.val; omega)
    have hw : extractStridedSlice ⟨2, ![K2, N]⟩ ![K1, 0] W hs2 (ix2 c q) = W (ix2 (Fin.natAdd K1 c) q) :=
      extractStridedSlice_apply ![K1, 0] W hs2 (ix2 c q) (ix2 (Fin.natAdd K1 c) q) (fun a => by
        match a with
        | ⟨0, _⟩ => show K1 + c.val = K1 + c.val; rfl
        | ⟨1, _⟩ => show q.val = 0 + q.val; omega)
    rw [hl, hw, rows_apply]

end Cert.LibRowBlock

end
-- ==== Proof.Region2Math.lean ====
/-
  The third kernel region's arithmetic on one block of rows, against the reference's stages read through the same
  block: the node path (second convolution, node projection), the edge-attribute path (four dense layers) and the
  merge (the two halves of the final weight, the bias, the logistic function).
-/
import proofs.«170601_j32031866093971_2_alg».proof.Proof.Region2Win
import proofs.«170601_j32031866093971_2_alg».proof.Proof.LibRowJoin
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.LibRowBlock (rows)

section Region2

/-- The host's array of ones holds the number one at every node. -/
theorem ones_apply2 (r : Fin 100000) : (broadcastInDim S100000 ![] bcast_S_S100000 (constant (F := Ideal) S_ .f32 0x3F800000#32)) (ValueIdx.ix1 r) = (1 : EReal) := by
  rw [Cert.LibRowVector.inDimScalar_apply, ValueIdx.constant_apply, Cert.LibRecip.one_f32]

/-- The clamped degree (the reference's second copy of it) is at least one at every node. -/
theorem one_le_deg2 (x1 : Cert.ReferenceIdeal.S2x1600000.Idx → BitVec 32) (r : Fin 100000) :
    1 ≤ Cert.ReferenceIdeal.Read.val_main_v49 (F := Ideal) x1 (ValueIdx.ix1 r) := by
  unfold Cert.ReferenceIdeal.Read.val_main_v49 Cert.ReferenceIdeal.Read.val_main_v48 Cert.ReferenceIdeal.Read.val_main_cst_9
  rw [ValueIdx.maximumf_apply, Cert.LibRowVector.inDimScalar_apply, ValueIdx.constant_apply, Cert.LibRecip.one_f32]
  exact le_max_right _ _

/-- The node path's arithmetic on one block, as operations of the blocks it loads (the changes of float format
    and the casts of a shape to itself are the identity). -/
theorem pay2 (y0 : Vec Ideal S4000x128 .bf16) (y1 : Vec Ideal S4000x128 .f32) (y2 : Vec Ideal S4000x1 .f32)
    (y4 y5 : Vec Ideal S128x128 .f32) (y6 : Vec Ideal S128 .f32) (y7 : Vec Ideal S128x128 .f32) (y8 : Vec Ideal S128 .f32) :
    (k2_pay4 (F := Ideal) (k2_pay2 y0 y1 y2 y4 y5 y6 y7 y8) : S4000x128.Idx → EReal)
      = (addf (FloatOps.matmul (φ₁ := .bf16) (φ₂ := .bf16) dot_S4000x128_S128x128_S4000x128_1_0_0_1_n_n none
          ((maximumf (addf (addf
              (FloatOps.matmul (φ₁ := .bf16) (φ₂ := .bf16) dot_S4000x128_S128x128_S4000x128_1_0_0_1_n_n none y0 y4 (constant S4000x128 .f32 0x00000000#32))
              (FloatOps.matmul (φ₁ := .bf16) (φ₂ := .bf16) dot_S4000x128_S128x128_S4000x128_1_0_0_1_n_n none (mulf (F := Ideal) (φ := .f32) y1 (broadcastTo S4000x128 y2 broadcasts_S4000x1_S4000x128)) y5 (constant S4000x128 .f32 0x00000000#32)))
              (broadcastTo S4000x128 (shapeCast S1x128 y6 shapeCasts_S128_S1x128) broadcasts_S1x128_S4000x128))
            (broadcast S4000x128 (Scalar.ofBits (F := Ideal) .f32 0x00000000#32)) : FVec Ideal S4000x128 .f32))
          y7 (constant S4000x128 .f32 0x00000000#32))
          (broadcastTo S4000x128 (shapeCast S1x128 y8 shapeCasts_S128_S1x128) broadcasts_S1x128_S4000x128) : FVec Ideal S4000x128 .f32) := by
  unfold k2_pay4 k2_pay2
  simp only [shapeCast_self]
  rfl

/-- THE NODE PATH on one block: the second convolution and the node projection of the block's rows are the block
    of rows of the reference's. -/
theorem feat_rows (t : Fin cfg2.N)
    (x0 : Cert.ReferenceIdeal.S100000x256.Idx → EReal) (x1 : Cert.ReferenceIdeal.S2x1600000.Idx → BitVec 32) (x2 : Cert.ReferenceIdeal.S100000x5.Idx → EReal) (x3 : Cert.ReferenceIdeal.S256x128.Idx → EReal) (x4 : Cert.ReferenceIdeal.S128.Idx → EReal)
    (x5 x6 : Cert.ReferenceIdeal.S128x128.Idx → EReal) (x7 : Cert.ReferenceIdeal.S128.Idx → EReal) (x8 x9 : Cert.ReferenceIdeal.S128x128.Idx → EReal) (x10 : Cert.ReferenceIdeal.S128.Idx → EReal)
    (x11 : Cert.ReferenceIdeal.S128x128.Idx → EReal) (x12 : Cert.ReferenceIdeal.S128.Idx → EReal) (x13 : Cert.ReferenceIdeal.S5x128.Idx → EReal) (x14 : Cert.ReferenceIdeal.S128.Idx → EReal)
    (x15 : Cert.ReferenceIdeal.S128x128.Idx → EReal) (x16 : Cert.ReferenceIdeal.S128.Idx → EReal) (x17 : Cert.ReferenceIdeal.S128x128.Idx → EReal) (x18 : Cert.ReferenceIdeal.S128.Idx → EReal)
    (x19 : Cert.ReferenceIdeal.S128x128.Idx → EReal) (x20 : Cert.ReferenceIdeal.S128.Idx → EReal) (x21 : Cert.ReferenceIdeal.S256x1.Idx → EReal) (x22 : Cert.ReferenceIdeal.S1.Idx → EReal) :
    (k2_pay4 (F := Ideal) (k2_pay2 (rows (4000 * t.val) (blk_le2 t) (Cert.ReferenceIdeal.Read.val_main_v33 (F := Ideal) x0 x1 x3 x4 x5 x6 x7)) (rows (4000 * t.val) (blk_le2 t) (Cert.ReferenceIdeal.Read.val_main_v43 (F := Ideal) x0 x1 x3 x4 x5 x6 x7))
        (rows (4000 * t.val) (blk_le2 t) (broadcastInDim S100000x1 ![0] bcast_S100000_S100000x1_0 (Host.divf (F := Ideal) (broadcastInDim S100000 ![] bcast_S_S100000 (constant (F := Ideal) S_ .f32 0x3F800000#32)) (Cert.ReferenceIdeal.Read.val_main_v49 (F := Ideal) x1)))) x8 x9 x10 x11 x12) : S4000x128.Idx → EReal)
      = rows (4000 * t.val) (blk_le2 t) (Cert.ReferenceIdeal.Read.val_main_v63 (F := Ideal) x0 x1 x3 x4 x5 x6 x7 x8 x9 x10 x11 x12) := by
  rw [pay2]
  unfold Cert.ReferenceIdeal.Read.val_main_v63 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_v55 Cert.ReferenceIdeal.Read.val_main_v54
    Cert.ReferenceIdeal.Read.val_main_v53 Cert.ReferenceIdeal.Read.val_main_v52 Cert.ReferenceIdeal.Read.val_main_v51 Cert.ReferenceIdeal.Read.val_main_v50 Cert.ReferenceIdeal.Read.val_main_call1_v0 Cert.ReferenceIdeal.Read.val_main_call1_cst
  simp only [Cert.LibRowBlock.rows_maximumf, Cert.LibRowBlock.rows_addf,
    Cert.LibRowBlock.rows_dotGeneral (4000 * t.val) (blk_le2 t) Cert.ReferenceIdeal.dot_S100000x128_S128x128_S100000x128_1_0_0_1_n_n rfl rfl rfl rfl rfl rfl dot_S4000x128_S128x128_S4000x128_1_0_0_1_n_n rfl rfl rfl rfl rfl rfl,
    Cert.LibRowBlock.rows_dotGeneral (4000 * t.val) (blk_le2 t) Cert.ReferenceIdeal.dot_S100000x5_S5x128_S100000x128_1_0_0_1_n_n rfl rfl rfl rfl rfl rfl dot_S4000x5_S5x128_S4000x128_1_0_0_1_n_n rfl rfl rfl rfl rfl rfl,
    Cert.LibRowBlock.rows_divide_count (4000 * t.val) (blk_le2 t) _ (Cert.ReferenceIdeal.Read.val_main_v49 (F := Ideal) x1) (one_le_deg2 x1) (broadcastInDim S100000 ![] bcast_S_S100000 (constant (F := Ideal) S_ .f32 0x3F800000#32)) ones_apply2
      Cert.ReferenceIdeal.Gen.bcast_S100000_S100000x1_0 Cert.ReferenceIdeal.Gen.bcast_S100000x1_S100000x128_0_1 broadcasts_S4000x1_S4000x128,
    Cert.LibRowBlock.rows_bias (N := 128) (4000 * t.val) (blk_le2 t) _ Cert.ReferenceIdeal.Gen.bcast_S128_S1x128_1 Cert.ReferenceIdeal.Gen.bcast_S1x128_S100000x128_0_1
      shapeCasts_S128_S1x128 broadcasts_S1x128_S4000x128,
    Cert.LibRowBlock.rows_splat (4000 * t.val) (blk_le2 t) 0x00000000#32 Cert.ReferenceIdeal.Gen.bcast_S_S100000x128]
  rfl

/-- THE EDGE-ATTRIBUTE PATH on one block: the four layers of the block's rows are the block of rows of the
    reference's. -/
theorem dist_rows (t : Fin cfg2.N)
    (x0 : Cert.ReferenceIdeal.S100000x256.Idx → EReal) (x1 : Cert.ReferenceIdeal.S2x1600000.Idx → BitVec 32) (x2 : Cert.ReferenceIdeal.S100000x5.Idx → EReal) (x3 : Cert.ReferenceIdeal.S256x128.Idx → EReal) (x4 : Cert.ReferenceIdeal.S128.Idx → EReal)
    (x5 x6 : Cert.ReferenceIdeal.S128x128.Idx → EReal) (x7 : Cert.ReferenceIdeal.S128.Idx → EReal) (x8 x9 : Cert.ReferenceIdeal.S128x128.Idx → EReal) (x10 : Cert.ReferenceIdeal.S128.Idx → EReal)
    (x11 : Cert.ReferenceIdeal.S128x128.Idx → EReal) (x12 : Cert.ReferenceIdeal.S128.Idx → EReal) (x13 : Cert.ReferenceIdeal.S5x128.Idx → EReal) (x14 : Cert.ReferenceIdeal.S128.Idx → EReal)
    (x15 : Cert.ReferenceIdeal.S128x128.Idx → EReal) (x16 : Cert.ReferenceIdeal.S128.Idx → EReal) (x17 : Cert.ReferenceIdeal.S128x128.Idx → EReal) (x18 : Cert.ReferenceIdeal.S128.Idx → EReal)
    (x19 : Cert.ReferenceIdeal.S128x128.Idx → EReal) (x20 : Cert.ReferenceIdeal.S128.Idx → EReal) (x21 : Cert.ReferenceIdeal.S256x1.Idx → EReal) (x22 : Cert.ReferenceIdeal.S1.Idx → EReal) :
    (k2_pay5 (F := Ideal) (k2_pay3 (rows (4000 * t.val) (blk_le2 t) x2) x13) x14 x15 x16 x17 x18 x19 x20 : S4000x128.Idx → EReal)
      = rows (4000 * t.val) (blk_le2 t) (Cert.ReferenceIdeal.Read.val_main_v82 (F := Ideal) x2 x13 x14 x15 x16 x17 x18 x19 x20) := by
  unfold Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_v77 Cert.ReferenceIdeal.Read.val_main_v76 Cert.ReferenceIdeal.Read.val_main_v75 Cert.ReferenceIdeal.Read.val_main_v74
    Cert.ReferenceIdeal.Read.val_main_v73 Cert.ReferenceIdeal.Read.val_main_v72 Cert.ReferenceIdeal.Read.val_main_v71 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_v65 Cert.ReferenceIdeal.Read.val_main_v64
    Cert.ReferenceIdeal.Read.val_main_call2_v0 Cert.ReferenceIdeal.Read.val_main_call2_cst Cert.ReferenceIdeal.Read.val_main_call3_v0 Cert.ReferenceIdeal.Read.val_main_call3_cst Cert.ReferenceIdeal.Read.val_main_call4_v0 Cert.ReferenceIdeal.Read.val_main_call4_cst
  simp only [Cert.LibRowBlock.rows_maximumf, Cert.LibRowBlock.rows_addf,
    Cert.LibRowBlock.rows_dotGeneral (4000 * t.val) (blk_le2 t) Cert.ReferenceIdeal.dot_S100000x128_S128x128_S100000x128_1_0_0_1_n_n rfl rfl rfl rfl rfl rfl dot_S4000x128_S128x128_S4000x128_1_0_0_1_n_n rfl rfl rfl rfl rfl rfl,
    Cert.LibRowBlock.rows_dotGeneral (4000 * t.val) (blk_le2 t) Cert.ReferenceIdeal.dot_S100000x5_S5x128_S100000x128_1_0_0_1_n_n rfl rfl rfl rfl rfl rfl dot_S4000x5_S5x128_S4000x128_1_0_0_1_n_n rfl rfl rfl rfl rfl rfl,
    Cert.LibRowBlock.rows_divide_count (4000 * t.val) (blk_le2 t) _ (Cert.ReferenceIdeal.Read.val_main_v49 (F := Ideal) x1) (one_le_deg2 x1) (broadcastInDim S100000 ![] bcast_S_S100000 (constant (F := Ideal) S_ .f32 0x3F800000#32)) ones_apply2
      Cert.ReferenceIdeal.Gen.bcast_S100000_S100000x1_0 Cert.ReferenceIdeal.Gen.bcast_S100000x1_S100000x128_0_1 broadcasts_S4000x1_S4000x128,
    Cert.LibRowBlock.rows_bias (N := 128) (4000 * t.val) (blk_le2 t) _ Cert.ReferenceIdeal.Gen.bcast_S128_S1x128_1 Cert.ReferenceIdeal.Gen.bcast_S1x128_S100000x128_0_1
      shapeCasts_S128_S1x128 broadcasts_S1x128_S4000x128,
    Cert.LibRowBlock.rows_splat (4000 * t.val) (blk_le2 t) 0x00000000#32 Cert.ReferenceIdeal.Gen.bcast_S_S100000x128]
  unfold k2_pay5 k2_pay3
  rfl

/-- THE MERGE on one block: the two results against the two halves of the final weight, the bias, the logistic
    function — the block of rows of the logistic function of the reference's logits. -/
theorem merge_rows (t : Fin cfg2.N)
    (x0 : Cert.ReferenceIdeal.S100000x256.Idx → EReal) (x1 : Cert.ReferenceIdeal.S2x1600000.Idx → BitVec 32) (x2 : Cert.ReferenceIdeal.S100000x5.Idx → EReal) (x3 : Cert.ReferenceIdeal.S256x128.Idx → EReal) (x4 : Cert.ReferenceIdeal.S128.Idx → EReal)
    (x5 x6 : Cert.ReferenceIdeal.S128x128.Idx → EReal) (x7 : Cert.ReferenceIdeal.S128.Idx → EReal) (x8 x9 : Cert.ReferenceIdeal.S128x128.Idx → EReal) (x10 : Cert.ReferenceIdeal.S128.Idx → EReal)
    (x11 : Cert.ReferenceIdeal.S128x128.Idx → EReal) (x12 : Cert.ReferenceIdeal.S128.Idx → EReal) (x13 : Cert.ReferenceIdeal.S5x128.Idx → EReal) (x14 : Cert.ReferenceIdeal.S128.Idx → EReal)
    (x15 : Cert.ReferenceIdeal.S128x128.Idx → EReal) (x16 : Cert.ReferenceIdeal.S128.Idx → EReal) (x17 : Cert.ReferenceIdeal.S128x128.Idx → EReal) (x18 : Cert.ReferenceIdeal.S128.Idx → EReal)
    (x19 : Cert.ReferenceIdeal.S128x128.Idx → EReal) (x20 : Cert.ReferenceIdeal.S128.Idx → EReal) (x21 : Cert.ReferenceIdeal.S256x1.Idx → EReal) (x22 : Cert.ReferenceIdeal.S1.Idx → EReal)
    (Fb Db : FVec Ideal S4000x128 .bf16)
    (hF : (Fb : S4000x128.Idx → EReal) = rows (4000 * t.val) (blk_le2 t) (Cert.ReferenceIdeal.Read.val_main_v63 (F := Ideal) x0 x1 x3 x4 x5 x6 x7 x8 x9 x10 x11 x12))
    (hD : (Db : S4000x128.Idx → EReal) = rows (4000 * t.val) (blk_le2 t) (Cert.ReferenceIdeal.Read.val_main_v82 (F := Ideal) x2 x13 x14 x15 x16 x17 x18 x19 x20)) :
    (k2_pay1 (F := Ideal) Fb Db (k2_pay6 (extractStridedSlice S128x1 ![0, 0] x21 slices_S256x1_S128x1_0_0))
        (k2_pay7 (extractStridedSlice S128x1 ![128, 0] x21 slices_S256x1_S128x1_128_0)) x22 : S4000x1.Idx → EReal)
      = rows (4000 * t.val) (blk_le2 t) (logistic (F := Ideal) (s := S100000x1) (φ := .f32) (Cert.ReferenceIdeal.Read.val_main_v87 (F := Ideal) x0 x1 x2 x3 x4 x5 x6 x7 x8 x9 x10 x11 x12 x13 x14 x15 x16 x17 x18 x19 x20 x21 x22)) := by
  subst hF hD
  unfold Cert.ReferenceIdeal.Read.val_main_v87 Cert.ReferenceIdeal.Read.val_main_v86 Cert.ReferenceIdeal.Read.val_main_v85 Cert.ReferenceIdeal.Read.val_main_v84 Cert.ReferenceIdeal.Read.val_main_v83
  rw [Cert.LibRowBlock.rows_logistic, Cert.LibRowBlock.rows_addf,
    Cert.LibRowBlock.rows_dot_join (K := 256) (K1 := 128) (K2 := 128) rfl (4000 * t.val) (blk_le2 t) Cert.ReferenceIdeal.dot_S100000x256_S256x1_S100000x1_1_0_0_1_n_n rfl rfl rfl rfl rfl rfl dot_S4000x128_S128x1_S4000x1_1_0_0_1_n_n rfl rfl rfl rfl rfl rfl dot_S4000x128_S128x1_S4000x1_1_0_0_1_n_n rfl rfl rfl rfl rfl rfl _ _ x21
      Cert.ReferenceIdeal.Gen.concatenates_S100000x128_S100000x128_S100000x256_d1 slices_S256x1_S128x1_0_0 slices_S256x1_S128x1_128_0,
    Cert.LibRowBlock.rows_bias (N := 1) (4000 * t.val) (blk_le2 t) x22 Cert.ReferenceIdeal.Gen.bcast_S1_S1x1_1 Cert.ReferenceIdeal.Gen.bcast_S1x1_S100000x1_0_1 shapeCasts_S1_S1x1 broadcasts_S1x1_S4000x1]
  unfold k2_pay1 k2_pay6 k2_pay7
  simp only [shapeCast_self]
  rfl

end Region2

end Cert.KernelIdeal.Hand

end
-- ==== Proof.Region2.lean ====
/-
  The third kernel region: the second graph convolution, the node projection, the four-layer network on the
  edge attributes, the merge of the two 128-wide results through the final 256-by-1 weight, and the logistic
  function, one block of 4000 rows per grid point.

  The reference joins the two 128-wide results side by side and multiplies by the whole final weight; the kernel
  multiplies each by its half of the weight and adds.  The sum over the joined axis splits at the seam, so the two
  agree at every extended real.  As in the first convolution the reference divides the neighbour sums by the
  clamped degree where the kernel multiplies by its reciprocal.  Every operation acts on each row by itself, so
  what point t writes back is the block of rows of the logistic function of the reference's logits, and the 25
  blocks tile the rows.
-/
import proofs.«170601_j32031866093971_2_alg».proof.Proof.Region2Math
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.LibRowBlock (rows)

section Region2

variable (V : (c : Dev nD) → (b : Ref sig .tc) → Buf (Elt Ideal) ((c : Thread nD τ).loc b))

/-- The store's value from the blocks the body loads: the loads through whole rectangles are the blocks themselves. -/
theorem out2_eq (y0 : Vec Ideal S4000x128 .bf16) (y1 : Vec Ideal S4000x128 .f32) (y2 : Vec Ideal S4000x1 .f32) (y3 : Vec Ideal S4000x5 .f32)
    (y4 y5 : Vec Ideal S128x128 .f32) (y6 : Vec Ideal S128 .f32) (y7 : Vec Ideal S128x128 .f32) (y8 : Vec Ideal S128 .f32)
    (y9 : Vec Ideal S5x128 .f32) (y10 : Vec Ideal S128 .f32) (y11 : Vec Ideal S128x128 .f32) (y12 : Vec Ideal S128 .f32)
    (y13 : Vec Ideal S128x128 .f32) (y14 : Vec Ideal S128 .f32) (y15 : Vec Ideal S128x128 .f32) (y16 : Vec Ideal S128 .f32)
    (y17 y18 : Vec Ideal S128x1 .f32) (y19 : Vec Ideal S1 .f32) :
    out2_20 (F := Ideal) y0 y1 y2 y3 y4 y5 y6 y7 y8 y9 y10 y11 y12 y13 y14 y15 y16 y17 y18 y19
      = k2_pay1 (k2_pay4 (k2_pay2 y0 y1 y2 y4 y5 y6 y7 y8)) (k2_pay5 (k2_pay3 y3 y9) y10 y11 y12 y13 y14 y15 y16) (k2_pay6 y17) (k2_pay7 y18) y19 := by
  unfold out2_20
  rw [View.canon_unit_zero hz2]
  simp only [View.ld_unit_zero (S := S4000x128) hz2, View.ld_unit_zero (S := S4000x1) hz2, View.ld_unit_zero (S := S4000x5) hz2, View.ld_unit_zero (S := S5x128) hz2,
    View.ld_unit_zero (S := S128x128) hz2, View.ld_unit_zero (S := S128x1) hz2, View.ld_unit_zero (S := S128) hz1, View.ld_unit_zero (S := S1) hz1]

set_option maxHeartbeats 2000000 in
/-- WHAT POINT t WRITES BACK is its block of rows of the logistic function of the reference's logits. -/
theorem flushed2 (c : Dev nD) (t : Fin cfg2.N)
    (x0 : Cert.ReferenceIdeal.S100000x256.Idx → EReal) (x1 : Cert.ReferenceIdeal.S2x1600000.Idx → BitVec 32) (x2 : Cert.ReferenceIdeal.S100000x5.Idx → EReal) (x3 : Cert.ReferenceIdeal.S256x128.Idx → EReal) (x4 : Cert.ReferenceIdeal.S128.Idx → EReal)
    (x5 x6 : Cert.ReferenceIdeal.S128x128.Idx → EReal) (x7 : Cert.ReferenceIdeal.S128.Idx → EReal) (x8 x9 : Cert.ReferenceIdeal.S128x128.Idx → EReal) (x10 : Cert.ReferenceIdeal.S128.Idx → EReal)
    (x11 : Cert.ReferenceIdeal.S128x128.Idx → EReal) (x12 : Cert.ReferenceIdeal.S128.Idx → EReal) (x13 : Cert.ReferenceIdeal.S5x128.Idx → EReal) (x14 : Cert.ReferenceIdeal.S128.Idx → EReal)
    (x15 : Cert.ReferenceIdeal.S128x128.Idx → EReal) (x16 : Cert.ReferenceIdeal.S128.Idx → EReal) (x17 : Cert.ReferenceIdeal.S128x128.Idx → EReal) (x18 : Cert.ReferenceIdeal.S128.Idx → EReal)
    (x19 : Cert.ReferenceIdeal.S128x128.Idx → EReal) (x20 : Cert.ReferenceIdeal.S128.Idx → EReal) (x21 : Cert.ReferenceIdeal.S256x1.Idx → EReal) (x22 : Cert.ReferenceIdeal.S1.Idx → EReal)
    (h25 : (V c main_v25 : S100000x128.Idx → EReal) = Cert.ReferenceIdeal.Read.val_main_v33 (F := Ideal) x0 x1 x3 x4 x5 x6 x7)
    (h36 : (V c main_v36 : S100000x128.Idx → EReal) = Cert.ReferenceIdeal.Read.val_main_v43 (F := Ideal) x0 x1 x3 x4 x5 x6 x7)
    (h12 : (V c main_v12 : S100000x1.Idx → EReal) = (broadcastInDim S100000x1 ![0] bcast_S100000_S100000x1_0 (Host.divf (F := Ideal) (broadcastInDim S100000 ![] bcast_S_S100000 (constant (F := Ideal) S_ .f32 0x3F800000#32)) (Cert.ReferenceIdeal.Read.val_main_v49 (F := Ideal) x1))))
    (ha2 : (V c main_arg2 : S100000x5.Idx → EReal) = x2)
    (ha8 : (V c main_arg8 : S128x128.Idx → EReal) = x8) (ha9 : (V c main_arg9 : S128x128.Idx → EReal) = x9)
    (ha10 : (V c main_arg10 : S128.Idx → EReal) = x10) (ha11 : (V c main_arg11 : S128x128.Idx → EReal) = x11)
    (ha12 : (V c main_arg12 : S128.Idx → EReal) = x12) (ha13 : (V c main_arg13 : S5x128.Idx → EReal) = x13)
    (ha14 : (V c main_arg14 : S128.Idx → EReal) = x14) (ha15 : (V c main_arg15 : S128x128.Idx → EReal) = x15)
    (ha16 : (V c main_arg16 : S128.Idx → EReal) = x16) (ha17 : (V c main_arg17 : S128x128.Idx → EReal) = x17)
    (ha18 : (V c main_arg18 : S128.Idx → EReal) = x18) (ha19 : (V c main_arg19 : S128x128.Idx → EReal) = x19)
    (ha20 : (V c main_arg20 : S128.Idx → EReal) = x20)
    (h37 : (V c main_v37 : S128x1.Idx → EReal) = extractStridedSlice S128x1 ![0, 0] x21 slices_S256x1_S128x1_0_0)
    (h38 : (V c main_v38 : S128x1.Idx → EReal) = extractStridedSlice S128x1 ![128, 0] x21 slices_S256x1_S128x1_128_0)
    (ha22 : (V c main_arg22 : S1.Idx → EReal) = x22) :
    (dat2 V c).flushed 20 t = ((cfg2.win 20).blk t).view.read (Elt Ideal) (logistic (F := Ideal) (s := S100000x1) (φ := .f32) (Cert.ReferenceIdeal.Read.val_main_v87 (F := Ideal) x0 x1 x2 x3 x4 x5 x6 x7 x8 x9 x10 x11 x12 x13 x14 x15 x16 x17 x18 x19 x20 x21 x22)) := by
  show (cfg2.win 20).cut (grid2.coords t) ((dat2 V c).after 20 t) = _
  rw [after2_20, iblk2_0, iblk2_1, iblk2_2, iblk2_3, iblk2_4, iblk2_5, iblk2_6, iblk2_7, iblk2_8, iblk2_9, iblk2_10, iblk2_11, iblk2_12, iblk2_13, iblk2_14,
    iblk2_15, iblk2_16, iblk2_17, iblk2_18, iblk2_19, h25, h36, h12, ha2, ha8, ha9, ha10, ha11, ha12, ha13, ha14, ha15, ha16, ha17, ha18, ha19, ha20, h37, h38, ha22,
    out2_eq]
  exact (merge_rows t x0 x1 x2 x3 x4 x5 x6 x7 x8 x9 x10 x11 x12 x13 x14 x15 x16 x17 x18 x19 x20 x21 x22 _ _ (feat_rows t x0 x1 x2 x3 x4 x5 x6 x7 x8 x9 x10 x11 x12 x13 x14 x15 x16 x17 x18 x19 x20 x21 x22) (dist_rows t x0 x1 x2 x3 x4 x5 x6 x7 x8 x9 x10 x11 x12 x13 x14 x15 x16 x17 x18 x19 x20 x21 x22)).trans (oblk2_20 c t _).symm

/-- THE RESULT ARRAY after the region: the logistic function of the reference's logits, kept as a column. -/
theorem final2 (c : Dev nD)
    (x0 : Cert.ReferenceIdeal.S100000x256.Idx → EReal) (x1 : Cert.ReferenceIdeal.S2x1600000.Idx → BitVec 32) (x2 : Cert.ReferenceIdeal.S100000x5.Idx → EReal) (x3 : Cert.ReferenceIdeal.S256x128.Idx → EReal) (x4 : Cert.ReferenceIdeal.S128.Idx → EReal)
    (x5 x6 : Cert.ReferenceIdeal.S128x128.Idx → EReal) (x7 : Cert.ReferenceIdeal.S128.Idx → EReal) (x8 x9 : Cert.ReferenceIdeal.S128x128.Idx → EReal) (x10 : Cert.ReferenceIdeal.S128.Idx → EReal)
    (x11 : Cert.ReferenceIdeal.S128x128.Idx → EReal) (x12 : Cert.ReferenceIdeal.S128.Idx → EReal) (x13 : Cert.ReferenceIdeal.S5x128.Idx → EReal) (x14 : Cert.ReferenceIdeal.S128.Idx → EReal)
    (x15 : Cert.ReferenceIdeal.S128x128.Idx → EReal) (x16 : Cert.ReferenceIdeal.S128.Idx → EReal) (x17 : Cert.ReferenceIdeal.S128x128.Idx → EReal) (x18 : Cert.ReferenceIdeal.S128.Idx → EReal)
    (x19 : Cert.ReferenceIdeal.S128x128.Idx → EReal) (x20 : Cert.ReferenceIdeal.S128.Idx → EReal) (x21 : Cert.ReferenceIdeal.S256x1.Idx → EReal) (x22 : Cert.ReferenceIdeal.S1.Idx → EReal)
    (h25 : (V c main_v25 : S100000x128.Idx → EReal) = Cert.ReferenceIdeal.Read.val_main_v33 (F := Ideal) x0 x1 x3 x4 x5 x6 x7)
    (h36 : (V c main_v36 : S100000x128.Idx → EReal) = Cert.ReferenceIdeal.Read.val_main_v43 (F := Ideal) x0 x1 x3 x4 x5 x6 x7)
    (h12 : (V c main_v12 : S100000x1.Idx → EReal) = (broadcastInDim S100000x1 ![0] bcast_S100000_S100000x1_0 (Host.divf (F := Ideal) (broadcastInDim S100000 ![] bcast_S_S100000 (constant (F := Ideal) S_ .f32 0x3F800000#32)) (Cert.ReferenceIdeal.Read.val_main_v49 (F := Ideal) x1))))
    (ha2 : (V c main_arg2 : S100000x5.Idx → EReal) = x2)
    (ha8 : (V c main_arg8 : S128x128.Idx → EReal) = x8) (ha9 : (V c main_arg9 : S128x128.Idx → EReal) = x9)
    (ha10 : (V c main_arg10 : S128.Idx → EReal) = x10) (ha11 : (V c main_arg11 : S128x128.Idx → EReal) = x11)
    (ha12 : (V c main_arg12 : S128.Idx → EReal) = x12) (ha13 : (V c main_arg13 : S5x128.Idx → EReal) = x13)
    (ha14 : (V c main_arg14 : S128.Idx → EReal) = x14) (ha15 : (V c main_arg15 : S128x128.Idx → EReal) = x15)
    (ha16 : (V c main_arg16 : S128.Idx → EReal) = x16) (ha17 : (V c main_arg17 : S128x128.Idx → EReal) = x17)
    (ha18 : (V c main_arg18 : S128.Idx → EReal) = x18) (ha19 : (V c main_arg19 : S128x128.Idx → EReal) = x19)
    (ha20 : (V c main_arg20 : S128.Idx → EReal) = x20)
    (h37 : (V c main_v37 : S128x1.Idx → EReal) = extractStridedSlice S128x1 ![0, 0] x21 slices_S256x1_S128x1_0_0)
    (h38 : (V c main_v38 : S128x1.Idx → EReal) = extractStridedSlice S128x1 ![128, 0] x21 slices_S256x1_S128x1_128_0)
    (ha22 : (V c main_arg22 : S1.Idx → EReal) = x22) :
    (dat2 V c).arrAt 20 cfg2.N = logistic (F := Ideal) (s := S100000x1) (φ := .f32) (Cert.ReferenceIdeal.Read.val_main_v87 (F := Ideal) x0 x1 x2 x3 x4 x5 x6 x7 x8 x9 x10 x11 x12 x13 x14 x15 x16 x17 x18 x19 x20 x21 x22) :=
  (dat2 V c).arrAt_eq_of_cover 20 _ (fun t _ => flushed2 V c t x0 x1 x2 x3 x4 x5 x6 x7 x8 x9 x10 x11 x12 x13 x14 x15 x16 x17 x18 x19 x20 x21 x22 h25 h36 h12 ha2 ha8 ha9 ha10 ha11 ha12 ha13 ha14 ha15 ha16 ha17 ha18 ha19 ha20 h37 h38 ha22) cover2

end Region2

end Cert.KernelIdeal.Hand

end
-- ==== Proof.Chain.lean ====
/-
  The whole run of the idealized kernel, stretch by stretch and region by region.

  Each buffer the three regions read is followed back through the fold of the seven segments: a host stretch
  leaves a buffer it does not write as it found it and writes its own results as its operations of what it found;
  a region leaves everything but its arrays as it found them and its output array at what the region modules
  compute.  The degree, its reciprocal column, the index arrays, the gathers and the accumulating scatters are the
  same operations of the same operands in the kernel's program and in the reference, so once a region's output is
  known to be the reference's layer, the next stretch's results are the reference's next stages.  At the end the
  result buffer holds the reshape to a vector of the logistic function of the reference's logits; the reference
  computes 1 / (1 + exp (-x)) of the reshaped logits, which is the logistic function by definition.
-/
import proofs.«170601_j32031866093971_2_alg».proof.Proof.Region1
import proofs.«170601_j32031866093971_2_alg».proof.Proof.Region2

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments, read back through the fold -/

theorem W1_arg0 (c : Dev nD) : (W1 m ρ c (Proc.devRef .tc main_arg0) : S100000x256.Idx → EReal) = (m ((c : Thread nD τ).loc main_arg0)) := by
  show StableHlo.after hostOps0 (W0 m ρ c) (Proc.devRef .tc main_arg0) = _
  after_results

theorem W1_arg3 (c : Dev nD) : (W1 m ρ c (Proc.devRef .tc main_arg3) : S256x128.Idx → EReal) = (m ((c : Thread nD τ).loc main_arg3)) := by
  show StableHlo.after hostOps0 (W0 m ρ c) (Proc.devRef .tc main_arg3) = _
  after_results

theorem W1_arg4 (c : Dev nD) : (W1 m ρ c (Proc.devRef .tc main_arg4) : S128.Idx → EReal) = (m ((c : Thread nD τ).loc main_arg4)) := by
  show StableHlo.after hostOps0 (W0 m ρ c) (Proc.devRef .tc main_arg4) = _
  after_results

theorem W3_arg5 (c : Dev nD) : (W3 m ρ c (Proc.devRef .tc main_arg5) : S128x128.Idx → EReal) = (m ((c : Thread nD τ).loc main_arg5)) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results

theorem W3_arg6 (c : Dev nD) : (W3 m ρ c (Proc.devRef .tc main_arg6) : S128x128.Idx → EReal) = (m ((c : Thread nD τ).loc main_arg6)) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results

theorem W3_arg7 (c : Dev nD) : (W3 m ρ c (Proc.devRef .tc main_arg7) : S128.Idx → EReal) = (m ((c : Thread nD τ).loc main_arg7)) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results

theorem W4_arg2 (c : Dev nD) : (W4 m ρ c (Proc.devRef .tc main_arg2) : S100000x5.Idx → EReal) = (m ((c : Thread nD τ).loc main_arg2)) := by
  rw [W4_of_ne m ρ c main_arg2 (by decide)]
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results

theorem W5_arg2 (c : Dev nD) : (W5 m ρ c (Proc.devRef .tc main_arg2) : S100000x5.Idx → EReal) = (m ((c : Thread nD τ).loc main_arg2)) := by
  show StableHlo.after hostOps2 (W4 m ρ c) (Proc.devRef .tc main_arg2) = _
  after_results
  exact W4_arg2 m ρ c

theorem W4_arg8 (c : Dev nD) : (W4 m ρ c (Proc.devRef .tc main_arg8) : S128x128.Idx → EReal) = (m ((c : Thread nD τ).loc main_arg8)) := by
  rw [W4_of_ne m ρ c main_arg8 (by decide)]
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results

theorem W5_arg8 (c : Dev nD) : (W5 m ρ c (Proc.devRef .tc main_arg8) : S128x128.Idx → EReal) = (m ((c : Thread nD τ).loc main_arg8)) := by
  show StableHlo.after hostOps2 (W4 m ρ c) (Proc.devRef .tc main_arg8) = _
  after_results
  exact W4_arg8 m ρ c

theorem W4_arg9 (c : Dev nD) : (W4 m ρ c (Proc.devRef .tc main_arg9) : S128x128.Idx → EReal) = (m ((c : Thread nD τ).loc main_arg9)) := by
  rw [W4_of_ne m ρ c main_arg9 (by decide)]
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results

theorem W5_arg9 (c : Dev nD) : (W5 m ρ c (Proc.devRef .tc main_arg9) : S128x128.Idx → EReal) = (m ((c : Thread nD τ).loc main_arg9)) := by
  show StableHlo.after hostOps2 (W4 m ρ c) (Proc.devRef .tc main_arg9) = _
  after_results
  exact W4_arg9 m ρ c

theorem W4_arg10 (c : Dev nD) : (W4 m ρ c (Proc.devRef .tc main_arg10) : S128.Idx → EReal) = (m ((c : Thread nD τ).loc main_arg10)) := by
  rw [W4_of_ne m ρ c main_arg10 (by decide)]
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results

theorem W5_arg10 (c : Dev nD) : (W5 m ρ c (Proc.devRef .tc main_arg10) : S128.Idx → EReal) = (m ((c : Thread nD τ).loc main_arg10)) := by
  show StableHlo.after hostOps2 (W4 m ρ c) (Proc.devRef .tc main_arg10) = _
  after_results
  exact W4_arg10 m ρ c

theorem W4_arg11 (c : Dev nD) : (W4 m ρ c (Proc.devRef .tc main_arg11) : S128x128.Idx → EReal) = (m ((c : Thread nD τ).loc main_arg11)) := by
  rw [W4_of_ne m ρ c main_arg11 (by decide)]
  show StableHlo.after hostOps1 (W2 m ρ c) (Proc.devRef .tc main_arg11) = _
  after_results
  rw [W2_of_ne m ρ c main_arg11 (by decide)]
  show StableHlo.after hostOps0 (W0 m ρ c) (Proc.devRef .tc main_arg11) = _
  after_results

theorem W5_arg11 (c : Dev nD) : (W5 m ρ c (Proc.devRef .tc main_arg11) : S128x128.Idx → EReal) = (m ((c : Thread nD τ).loc main_arg11)) := by
  show StableHlo.after hostOps2 (W4 m ρ c) (Proc.devRef .tc main_arg11) = _
  after_results
  exact W4_arg11 m ρ c

theorem W4_arg12 (c : Dev nD) : (W4 m ρ c (Proc.devRef .tc main_arg12) : S128.Idx → EReal) = (m ((c : Thread nD τ).loc main_arg12)) := by
  rw [W4_of_ne m ρ c main_arg12 (by decide)]
  show StableHlo.after hostOps1 (W2 m ρ c) (Proc.devRef .tc main_arg12) = _
  after_results
  rw [W2_of_ne m ρ c main_arg12 (by decide)]
  show StableHlo.after hostOps0 (W0 m ρ c) (Proc.devRef .tc main_arg12) = _
  after_results

theorem W5_arg12 (c : Dev nD) : (W5 m ρ c (Proc.devRef .tc main_arg12) : S128.Idx → EReal) = (m ((c : Thread nD τ).loc main_arg12)) := by
  show StableHlo.after hostOps2 (W4 m ρ c) (Proc.devRef .tc main_arg12) = _
  after_results
  exact W4_arg12 m ρ c

theorem W4_arg13 (c : Dev nD) : (W4 m ρ c (Proc.devRef .tc main_arg13) : S5x128.Idx → EReal) = (m ((c : Thread nD τ).loc main_arg13)) := by
  rw [W4_of_ne m ρ c main_arg13 (by decide)]
  show StableHlo.after hostOps1 (W2 m ρ c) (Proc.devRef .tc main_arg13) = _
  after_results
  rw [W2_of_ne m ρ c main_arg13 (by decide)]
  show StableHlo.after hostOps0 (W0 m ρ c) (Proc.devRef .tc main_arg13) = _
  after_results

theorem W5_arg13 (c : Dev nD) : (W5 m ρ c (Proc.devRef .tc main_arg13) : S5x128.Idx → EReal) = (m ((c : Thread nD τ).loc main_arg13)) := by
  show StableHlo.after hostOps2 (W4 m ρ c) (Proc.devRef .tc main_arg13) = _
  after_results
  exact W4_arg13 m ρ c

theorem W4_arg14 (c : Dev nD) : (W4 m ρ c (Proc.devRef .tc main_arg14) : S128.Idx → EReal) = (m ((c : Thread nD τ).loc main_arg14)) := by
  rw [W4_of_ne m ρ c main_arg14 (by decide)]
  show StableHlo.after hostOps1 (W2 m ρ c) (Proc.devRef .tc main_arg14) = _
  after_results
  rw [W2_of_ne m ρ c main_arg14 (by decide)]
  show StableHlo.after hostOps0 (W0 m ρ c) (Proc.devRef .tc main_arg14) = _
  after_results

theorem W5_arg14 (c : Dev nD) : (W5 m ρ c (Proc.devRef .tc main_arg14) : S128.Idx → EReal) = (m ((c : Thread nD τ).loc main_arg14)) := by
  show StableHlo.after hostOps2 (W4 m ρ c) (Proc.devRef .tc main_arg14) = _
  after_results
  exact W4_arg14 m ρ c

theorem W4_arg15 (c : Dev nD) : (W4 m ρ c (Proc.devRef .tc main_arg15) : S128x128.Idx → EReal) = (m ((c : Thread nD τ).loc main_arg15)) := by
  rw [W4_of_ne m ρ c main_arg15 (by decide)]
  show StableHlo.after hostOps1 (W2 m ρ c) (Proc.devRef .tc main_arg15) = _
  after_results
  rw [W2_of_ne m ρ c main_arg15 (by decide)]
  show StableHlo.after hostOps0 (W0 m ρ c) (Proc.devRef .tc main_arg15) = _
  after_results

theorem W5_arg15 (c : Dev nD) : (W5 m ρ c (Proc.devRef .tc main_arg15) : S128x128.Idx → EReal) = (m ((c : Thread nD τ).loc main_arg15)) := by
  show StableHlo.after hostOps2 (W4 m ρ c) (Proc.devRef .tc main_arg15) = _
  after_results
  exact W4_arg15 m ρ c

theorem W4_arg16 (c : Dev nD) : (W4 m ρ c (Proc.devRef .tc main_arg16) : S128.Idx → EReal) = (m ((c : Thread nD τ).loc main_arg16)) := by
  rw [W4_of_ne m ρ c main_arg16 (by decide)]
  show StableHlo.after hostOps1 (W2 m ρ c) (Proc.devRef .tc main_arg16) = _
  after_results
  rw [W2_of_ne m ρ c main_arg16 (by decide)]
  show StableHlo.after hostOps0 (W0 m ρ c) (Proc.devRef .tc main_arg16) = _
  after_results

theorem W5_arg16 (c : Dev nD) : (W5 m ρ c (Proc.devRef .tc main_arg16) : S128.Idx → EReal) = (m ((c : Thread nD τ).loc main_arg16)) := by
  show StableHlo.after hostOps2 (W4 m ρ c) (Proc.devRef .tc main_arg16) = _
  after_results
  exact W4_arg16 m ρ c

theorem W4_arg17 (c : Dev nD) : (W4 m ρ c (Proc.devRef .tc main_arg17) : S128x128.Idx → EReal) = (m ((c : Thread nD τ).loc main_arg17)) := by
  rw [W4_of_ne m ρ c main_arg17 (by decide)]
  show StableHlo.after hostOps1 (W2 m ρ c) (Proc.devRef .tc main_arg17) = _
  after_results
  rw [W2_of_ne m ρ c main_arg17 (by decide)]
  show StableHlo.after hostOps0 (W0 m ρ c) (Proc.devRef .tc main_arg17) = _
  after_results

theorem W5_arg17 (c : Dev nD) : (W5 m ρ c (Proc.devRef .tc main_arg17) : S128x128.Idx → EReal) = (m ((c : Thread nD τ).loc main_arg17)) := by
  show StableHlo.after hostOps2 (W4 m ρ c) (Proc.devRef .tc main_arg17) = _
  after_results
  exact W4_arg17 m ρ c

theorem W4_arg18 (c : Dev nD) : (W4 m ρ c (Proc.devRef .tc main_arg18) : S128.Idx → EReal) = (m ((c : Thread nD τ).loc main_arg18)) := by
  rw [W4_of_ne m ρ c main_arg18 (by decide)]
  show StableHlo.after hostOps1 (W2 m ρ c) (Proc.devRef .tc main_arg18) = _
  after_results
  rw [W2_of_ne m ρ c main_arg18 (by decide)]
  show StableHlo.after hostOps0 (W0 m ρ c) (Proc.devRef .tc main_arg18) = _
  after_results

theorem W5_arg18 (c : Dev nD) : (W5 m ρ c (Proc.devRef .tc main_arg18) : S128.Idx → EReal) = (m ((c : Thread nD τ).loc main_arg18)) := by
  show StableHlo.after hostOps2 (W4 m ρ c) (Proc.devRef .tc main_arg18) = _
  after_results
  exact W4_arg18 m ρ c

theorem W4_arg19 (c : Dev nD) : (W4 m ρ c (Proc.devRef .tc main_arg19) : S128x128.Idx → EReal) = (m ((c : Thread nD τ).loc main_arg19)) := by
  rw [W4_of_ne m ρ c main_arg19 (by decide)]
  show StableHlo.after hostOps1 (W2 m ρ c) (Proc.devRef .tc main_arg19) = _
  after_results
  rw [W2_of_ne m ρ c main_arg19 (by decide)]
  show StableHlo.after hostOps0 (W0 m ρ c) (Proc.devRef .tc main_arg19) = _
  after_results

theorem W5_arg19 (c : Dev nD) : (W5 m ρ c (Proc.devRef .tc main_arg19) : S128x128.Idx → EReal) = (m ((c : Thread nD τ).loc main_arg19)) := by
  show StableHlo.after hostOps2 (W4 m ρ c) (Proc.devRef .tc main_arg19) = _
  after_results
  exact W4_arg19 m ρ c

theorem W4_arg20 (c : Dev nD) : (W4 m ρ c (Proc.devRef .tc main_arg20) : S128.Idx → EReal) = (m ((c : Thread nD τ).loc main_arg20)) := by
  rw [W4_of_ne m ρ c main_arg20 (by decide)]
  show StableHlo.after hostOps1 (W2 m ρ c) (Proc.devRef .tc main_arg20) = _
  after_results
  rw [W2_of_ne m ρ c main_arg20 (by decide)]
  show StableHlo.after hostOps0 (W0 m ρ c) (Proc.devRef .tc main_arg20) = _
  after_results

theorem W5_arg20 (c : Dev nD) : (W5 m ρ c (Proc.devRef .tc main_arg20) : S128.Idx → EReal) = (m ((c : Thread nD τ).loc main_arg20)) := by
  show StableHlo.after hostOps2 (W4 m ρ c) (Proc.devRef .tc main_arg20) = _
  after_results
  exact W4_arg20 m ρ c

theorem W4_arg21 (c : Dev nD) : (W4 m ρ c (Proc.devRef .tc main_arg21) : S256x1.Idx → EReal) = (m ((c : Thread nD τ).loc main_arg21)) := by
  rw [W4_of_ne m ρ c main_arg21 (by decide)]
  show StableHlo.after hostOps1 (W2 m ρ c) (Proc.devRef .tc main_arg21) = _
  after_results
  rw [W2_of_ne m ρ c main_arg21 (by decide)]
  show StableHlo.after hostOps0 (W0 m ρ c) (Proc.devRef .tc main_arg21) = _
  after_results

theorem W5_arg21 (c : Dev nD) : (W5 m ρ c (Proc.devRef .tc main_arg21) : S256x1.Idx → EReal) = (m ((c : Thread nD τ).loc main_arg21)) := by
  show StableHlo.after hostOps2 (W4 m ρ c) (Proc.devRef .tc main_arg21) = _
  after_results
  exact W4_arg21 m ρ c

theorem W4_arg22 (c : Dev nD) : (W4 m ρ c (Proc.devRef .tc main_arg22) : S1.Idx → EReal) = (m ((c : Thread nD τ).loc main_arg22)) := by
  rw [W4_of_ne m ρ c main_arg22 (by decide)]
  show StableHlo.after hostOps1 (W2 m ρ c) (Proc.devRef .tc main_arg22) = _
  after_results
  rw [W2_of_ne m ρ c main_arg22 (by decide)]
  show StableHlo.after hostOps0 (W0 m ρ c) (Proc.devRef .tc main_arg22) = _
  after_results

theorem W5_arg22 (c : Dev nD) : (W5 m ρ c (Proc.devRef .tc main_arg22) : S1.Idx → EReal) = (m ((c : Thread nD τ).loc main_arg22)) := by
  show StableHlo.after hostOps2 (W4 m ρ c) (Proc.devRef .tc main_arg22) = _
  after_results
  exact W4_arg22 m ρ c

/-! ## The first stretch: the edge endpoints, the degree, its reciprocal column -/

theorem W1_v1 (c : Dev nD) : (W1 m ρ c (Proc.devRef .tc main_v1) : S1600000.Idx → BitVec 32) = Cert.ReferenceIdeal.Read.val_main_v1 (F := Ideal) (m ((c : Thread nD τ).loc main_arg1)) := by
  show StableHlo.after hostOps0 (W0 m ρ c) (Proc.devRef .tc main_v1) = _
  after_results
  rfl

theorem W1_v3 (c : Dev nD) : (W1 m ρ c (Proc.devRef .tc main_v3) : S1600000.Idx → BitVec 32) = Cert.ReferenceIdeal.Read.val_main_v3 (F := Ideal) (m ((c : Thread nD τ).loc main_arg1)) := by
  show StableHlo.after hostOps0 (W0 m ρ c) (Proc.devRef .tc main_v3) = _
  after_results
  rfl

theorem W1_v12 (c : Dev nD) : (W1 m ρ c (Proc.devRef .tc main_v12) : S100000x1.Idx → EReal) = (broadcastInDim S100000x1 ![0] bcast_S100000_S100000x1_0 (Host.divf (F := Ideal) (broadcastInDim S100000 ![] bcast_S_S100000 (constant (F := Ideal) S_ .f32 0x3F800000#32)) (Cert.ReferenceIdeal.Read.val_main_v23 (F := Ideal) (m ((c : Thread nD τ).loc main_arg1))))) := by
  show StableHlo.after hostOps0 (W0 m ρ c) (Proc.devRef .tc main_v12) = _
  after_results
  rfl

/-- The same column against the reference's second copy of the degree (the same operations of the same edges). -/
theorem W1_v12' (c : Dev nD) : (W1 m ρ c (Proc.devRef .tc main_v12) : S100000x1.Idx → EReal) = (broadcastInDim S100000x1 ![0] bcast_S100000_S100000x1_0 (Host.divf (F := Ideal) (broadcastInDim S100000 ![] bcast_S_S100000 (constant (F := Ideal) S_ .f32 0x3F800000#32)) (Cert.ReferenceIdeal.Read.val_main_v49 (F := Ideal) (m ((c : Thread nD τ).loc main_arg1))))) := by
  show StableHlo.after hostOps0 (W0 m ρ c) (Proc.devRef .tc main_v12) = _
  after_results
  rfl

/-! ## The first region and the second stretch -/

theorem W2_v13 (c : Dev nD) : (W2 m ρ c (Proc.devRef .tc main_v13) : S100000x128.Idx → EReal) = Cert.ReferenceIdeal.Read.val_main_v7 (F := Ideal) (m ((c : Thread nD τ).loc main_arg0)) (m ((c : Thread nD τ).loc main_arg3)) (m ((c : Thread nD τ).loc main_arg4)) :=
  (W2_arr m ρ c 3).trans (final0 (V1 m ρ) c _ _ _ (W1_arg0 m ρ c) (W1_arg3 m ρ c) (W1_arg4 m ρ c))

theorem W3_v13 (c : Dev nD) : (W3 m ρ c (Proc.devRef .tc main_v13) : S100000x128.Idx → EReal) = Cert.ReferenceIdeal.Read.val_main_v7 (F := Ideal) (m ((c : Thread nD τ).loc main_arg0)) (m ((c : Thread nD τ).loc main_arg3)) (m ((c : Thread nD τ).loc main_arg4)) := by
  show StableHlo.after hostOps1 (W2 m ρ c) (Proc.devRef .tc main_v13) = _
  after_results
  exact W2_v13 m ρ c

theorem W3_v1 (c : Dev nD) : (W3 m ρ c (Proc.devRef .tc main_v1) : S1600000.Idx → BitVec 32) = Cert.ReferenceIdeal.Read.val_main_v1 (F := Ideal) (m ((c : Thread nD τ).loc main_arg1)) := by
  show StableHlo.after hostOps1 (W2 m ρ c) (Proc.devRef .tc main_v1) = _
  after_results
  rw [W2_of_ne m ρ c main_v1 (by decide)]
  exact W1_v1 m ρ c

theorem W3_v3 (c : Dev nD) : (W3 m ρ c (Proc.devRef .tc main_v3) : S1600000.Idx → BitVec 32) = Cert.ReferenceIdeal.Read.val_main_v3 (F := Ideal) (m ((c : Thread nD τ).loc main_arg1)) := by
  show StableHlo.after hostOps1 (W2 m ρ c) (Proc.devRef .tc main_v3) = _
  after_results
  rw [W2_of_ne m ρ c main_v3 (by decide)]
  exact W1_v3 m ρ c

theorem W3_v12 (c : Dev nD) : (W3 m ρ c (Proc.devRef .tc main_v12) : S100000x1.Idx → EReal) = (broadcastInDim S100000x1 ![0] bcast_S100000_S100000x1_0 (Host.divf (F := Ideal) (broadcastInDim S100000 ![] bcast_S_S100000 (constant (F := Ideal) S_ .f32 0x3F800000#32)) (Cert.ReferenceIdeal.Read.val_main_v23 (F := Ideal) (m ((c : Thread nD τ).loc main_arg1))))) := by
  show StableHlo.after hostOps1 (W2 m ρ c) (Proc.devRef .tc main_v12) = _
  after_results
  rw [W2_of_ne m ρ c main_v12 (by decide)]
  exact W1_v12 m ρ c

theorem W3_v12' (c : Dev nD) : (W3 m ρ c (Proc.devRef .tc main_v12) : S100000x1.Idx → EReal) = (broadcastInDim S100000x1 ![0] bcast_S100000_S100000x1_0 (Host.divf (F := Ideal) (broadcastInDim S100000 ![] bcast_S_S100000 (constant (F := Ideal) S_ .f32 0x3F800000#32)) (Cert.ReferenceIdeal.Read.val_main_v49 (F := Ideal) (m ((c : Thread nD τ).loc main_arg1))))) := by
  show StableHlo.after hostOps1 (W2 m ρ c) (Proc.devRef .tc main_v12) = _
  after_results
  rw [W2_of_ne m ρ c main_v12 (by decide)]
  exact W1_v12' m ρ c

set_option maxHeartbeats 4000000 in
/-- The neighbour sums of the projected features: the gather along the sources and the accumulating scatter onto the
    destinations are the reference's, of the reference's projection. -/
theorem W3_v24 (c : Dev nD) : (W3 m ρ c (Proc.devRef .tc main_v24) : S100000x128.Idx → EReal) = Cert.ReferenceIdeal.Read.val_main_v17 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v24) = _
  after_results
  rw [W2_v13 m ρ c, W2_of_ne m ρ c main_v1 (by decide), W2_of_ne m ρ c main_v3 (by decide), W1_v1 m ρ c, W1_v3 m ρ c]
  rfl

/-! ## The second region and the third stretch -/

theorem W4_v25 (c : Dev nD) : (W4 m ρ c (Proc.devRef .tc main_v25) : S100000x128.Idx → EReal)
    = Cert.ReferenceIdeal.Read.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 6).trans (final1 (V3 m ρ) c _ _ _ _ _ _ _ (W3_v13 m ρ c) (W3_v24 m ρ c) (W3_v12 m ρ c) (W3_arg5 m ρ c) (W3_arg6 m ρ c) (W3_arg7 m ρ c))

theorem W5_v25 (c : Dev nD) : (W5 m ρ c (Proc.devRef .tc main_v25) : S100000x128.Idx → EReal)
    = Cert.ReferenceIdeal.Read.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v25) = _
  after_results
  exact W4_v25 m ρ c

/-- An input array of the second region is as the region found it. -/
theorem W4_v12 (c : Dev nD) : W4 m ρ c (Proc.devRef .tc main_v12) = W3 m ρ c (Proc.devRef .tc main_v12) :=
  (W4_arr m ρ c 2).trans (((dat1 (V3 m ρ) c).arrAt_in 2 rfl _).trans (A_eq1 (V3 m ρ) c 2))

theorem W5_v12 (c : Dev nD) : (W5 m ρ c (Proc.devRef .tc main_v12) : S100000x1.Idx → EReal) = (broadcastInDim S100000x1 ![0] bcast_S100000_S100000x1_0 (Host.divf (F := Ideal) (broadcastInDim S100000 ![] bcast_S_S100000 (constant (F := Ideal) S_ .f32 0x3F800000#32)) (Cert.ReferenceIdeal.Read.val_main_v49 (F := Ideal) (m ((c : Thread nD τ).loc main_arg1))))) := by
  show StableHlo.after hostOps2 (W4 m ρ c) (Proc.devRef .tc main_v12) = _
  after_results
  rw [W4_v12 m ρ c]
  exact W3_v12' m ρ c

set_option maxHeartbeats 4000000 in
/-- The neighbour sums of the first layer's features, likewise. -/
theorem W5_v36 (c : Dev nD) : (W5 m ρ c (Proc.devRef .tc main_v36) : S100000x128.Idx → EReal)
    = Cert.ReferenceIdeal.Read.val_main_v43 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v36) = _
  after_results
  rw [W4_v25 m ρ c, W4_of_ne m ρ c main_v1 (by decide), W4_of_ne m ρ c main_v3 (by decide), W3_v1 m ρ c, W3_v3 m ρ c]
  rfl

/-- The two halves of the final weight. -/
theorem W5_v37 (c : Dev nD) : (W5 m ρ c (Proc.devRef .tc main_v37) : S128x1.Idx → EReal)
    = extractStridedSlice S128x1 ![0, 0] (m ((c : Thread nD τ).loc main_arg21)) slices_S256x1_S128x1_0_0 := by
  show StableHlo.after hostOps2 (W4 m ρ c) (Proc.devRef .tc main_v37) = _
  after_results
  rw [W4_arg21 m ρ c]

theorem W5_v38 (c : Dev nD) : (W5 m ρ c (Proc.devRef .tc main_v38) : S128x1.Idx → EReal)
    = extractStridedSlice S128x1 ![128, 0] (m ((c : Thread nD τ).loc main_arg21)) slices_S256x1_S128x1_128_0 := by
  show StableHlo.after hostOps2 (W4 m ρ c) (Proc.devRef .tc main_v38) = _
  after_results
  rw [W4_arg21 m ρ c]

/-! ## The third region and the last stretch -/

theorem W6_v39 (c : Dev nD) : (W6 m ρ c (Proc.devRef .tc main_v39) : S100000x1.Idx → EReal)
    = logistic (F := Ideal) (s := S100000x1) (φ := .f32) (Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) :=
  (W6_arr m ρ c 20).trans (final2 (V5 m ρ) c _ _ _ _ _ _ _ _ _ _ _ _ _ _ _ _ _ _ _ _ _ _ _
    (W5_v25 m ρ c) (W5_v36 m ρ c) (W5_v12 m ρ c) (W5_arg2 m ρ c) (W5_arg8 m ρ c) (W5_arg9 m ρ c) (W5_arg10 m ρ c) (W5_arg11 m ρ c)
    (W5_arg12 m ρ c) (W5_arg13 m ρ c) (W5_arg14 m ρ c) (W5_arg15 m ρ c) (W5_arg16 m ρ c) (W5_arg17 m ρ c) (W5_arg18 m ρ c)
    (W5_arg19 m ρ c) (W5_arg20 m ρ c) (W5_v37 m ρ c) (W5_v38 m ρ c) (W5_arg22 m ρ c))

/-- A column reshaped to a vector, at node r, is the column's entry in row r. -/
theorem column_flat (X : S100000x1.Idx → EReal) (i : S100000.Idx) :
    shapeCast S100000 X shapeCasts_S100000x1_S100000 i = X (Cert.ReferenceIdeal.Read.idx_main_v88 i) :=
  shapeCast_apply X shapeCasts_S100000x1_S100000 i (Cert.ReferenceIdeal.Read.idx_main_v88 i)
    (by rewrite [Shape.rowMajor_val_two, Shape.rowMajor_val_one]; have h0 : (i 0).val < 100000 := (i 0).isLt; show ((i 0).val) / 1 * 1 + 0 = (i 0).val; omega)

/-- THE LOGISTIC FUNCTION: the vector of logistic values of a column of logits is 1 / (1 + exp (-x)) of the
    logits reshaped to a vector (the word of one denotes one; the rest is the function's definition). -/
theorem sigmoid_eq (L : S100000x1.Idx → EReal) :
    shapeCast S100000 (logistic (F := Ideal) (s := S100000x1) (φ := .f32) L) shapeCasts_S100000x1_S100000
      = Host.divf (F := Ideal) (φ := .f32) (broadcastInDim S100000 ![] bcast_S_S100000 (constant (F := Ideal) S_ .f32 0x3F800000#32))
          (addf (broadcastInDim S100000 ![] bcast_S_S100000 (constant (F := Ideal) S_ .f32 0x3F800000#32)) (Host.exp (Host.negf (shapeCast S100000 L shapeCasts_S100000x1_S100000)))) := by
  funext i
  rw [column_flat]
  show Ideal.logistic (L (Cert.ReferenceIdeal.Read.idx_main_v88 i)) = Ideal.div ((broadcastInDim S100000 ![] bcast_S_S100000 (constant (F := Ideal) S_ .f32 0x3F800000#32)) i) ((broadcastInDim S100000 ![] bcast_S_S100000 (constant (F := Ideal) S_ .f32 0x3F800000#32)) i + Ideal.exp (-(shapeCast S100000 L shapeCasts_S100000x1_S100000 i)))
  rw [column_flat, Cert.LibRowVector.inDimScalar_apply, ValueIdx.constant_apply, Cert.LibRecip.one_f32]
  rfl

/-- THE RESULT: the result buffer ends holding the reference's result term of the launch arguments. -/
theorem W7_v40 (c : Dev nD) : (W7 m ρ c (Proc.devRef .tc main_v40) : S100000.Idx → EReal)
    = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  show StableHlo.after hostOps3 (W6 m ρ c) (Proc.devRef .tc main_v40) = _
  after_results
  rw [W6_v39 m ρ c]
  exact sigmoid_eq _

/-- The idealized kernel's run, read: the result buffer at the reference's result term of the launch arguments,
    the arguments unchanged. -/
theorem run : θ_run defs (onTc (τ := τ) (main (F := Ideal))) ⟨m, fun _ => 0, ρ⟩ (fun r => ∀ c : Dev nD,
      r.2.mem ((c.tc : Thread nD τ).loc main_v40) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨(h c).1.trans (W7_v40 m ρ c), (h c).2⟩) (run_result m ρ)

end Cert.KernelIdeal.Hand

end
-- ==== Proof.lean ====
/-
  The certificate of the attribute-decoupled graph network: the kernel program, its idealization and the reference.

  The network projects the node features (h = x·W + b), applies two mean-aggregating graph convolutions
  (h' = max (h·Ws + mean(h)·Wn + b, 0), the mean over incoming edges taken as the neighbour sum over max (deg, 1)),
  projects again, runs a four-layer network on the edge attributes, joins the two 128-wide results through a
  256-by-1 weight, and applies the logistic function.  The kernel program does the dense parts in three tiled
  regions of 25 blocks of 4000 rows and the gathers and accumulating scatters on the host between them.

  Over the extended reals the idealized kernel and the idealized reference compute the same function of the
  arguments: the tiling is invisible because every dense operation acts on each row by itself and the blocks tile
  the rows; the kernel multiplies the neighbour sums by 1 / max (deg, 1) where the reference divides by max (deg, 1),
  and a number that is at least one is not zero, so the two agree (no finiteness is needed); the kernel multiplies the
  two 128-wide results by the two halves of the final weight and adds where the reference multiplies their join by
  the whole weight, and the sum over the joined axis splits at the seam; the reference spells the logistic function
  as 1 / (1 + exp (-x)), which is its definition.  The frames of the two kernel programs are the generated ones, the
  reference's frame is its generated run with the result dropped, and the idealization rewrote nothing.
-/
import proofs.«170601_j32031866093971_2_alg».proof.Defs
import proofs.«170601_j32031866093971_2_alg».proof.Proof.Gen.Kernel
import proofs.«170601_j32031866093971_2_alg».proof.Proof.Gen.Kernel.Skeleton
import proofs.«170601_j32031866093971_2_alg».proof.Proof.Gen.Kernel.Launch
import proofs.«170601_j32031866093971_2_alg».proof.Proof.Gen.Kernel.Points
import proofs.«170601_j32031866093971_2_alg».proof.Proof.Gen.Kernel.Frame
import proofs.«170601_j32031866093971_2_alg».proof.Proof.Gen.KernelIdeal
import proofs.«170601_j32031866093971_2_alg».proof.Proof.Gen.KernelIdeal.Skeleton
import proofs.«170601_j32031866093971_2_alg».proof.Proof.Gen.KernelIdeal.Launch
import proofs.«170601_j32031866093971_2_alg».proof.Proof.Gen.KernelIdeal.Points
import proofs.«170601_j32031866093971_2_alg».proof.Proof.Gen.KernelIdeal.Frame
import proofs.«170601_j32031866093971_2_alg».proof.Proof.Gen.ReferenceIdeal
import proofs.«170601_j32031866093971_2_alg».proof.Proof.Gen.Pre_finite_inputs
import proofs.«170601_j32031866093971_2_alg».proof.Proof.Gen.ReferenceIdeal.Run
import proofs.«170601_j32031866093971_2_alg».proof.Proof.Gen.ReferenceIdeal.Read
import proofs.«170601_j32031866093971_2_alg».proof.Proof.Chain
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

set_option maxHeartbeats 4000000 in
/-- From memories agreeing on the arguments both idealized programs end with the result at the reference's result
    term of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), Cert.KernelIdeal.Hand.run m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6, e7, e8, e9, e10, e11, e12, e13, e14, e15, e16, e17, e18, e19, e20, e21, e22⟩ := hagree c
  rw [(h c).1, Cert.ReferenceIdeal.Read.val_main_v94_eq, e0, e1, e2, e3, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
